-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S128 .f32) (main_arg7 : FVec F S128x8 .f32) (main_arg8 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg7
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x8 .f32) (main_arg8 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩
abbrev S1700000x128 : Shape := ⟨2, ![1700000, 128]⟩
abbrev S64x128 : Shape := ⟨2, ![64, 128]⟩
abbrev S64 : Shape := ⟨1, ![64]⟩
abbrev S64x1 : Shape := ⟨2, ![64, 1]⟩
abbrev S1x8 : Shape := ⟨2, ![1, 8]⟩
abbrev S64x8 : Shape := ⟨2, ![64, 8]⟩

abbrev nBuf : Space → Nat
  | .hbm => 98
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S128x128, .bf16⟩
  | .hbm, ⟨35, _⟩ => ⟨S128x128, .bf16⟩
  | .hbm, ⟨36, _⟩ => ⟨S1x128, .f32⟩
  | .hbm, ⟨37, _⟩ => ⟨S100000x128, .bf16⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S64x128, .f32⟩
  | .hbm, ⟨69, _⟩ => ⟨S100000x1, .i32⟩
  | .hbm, ⟨70, _⟩ => ⟨S64x128, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S64, .f32⟩
  | .hbm, ⟨75, _⟩ => ⟨S100000x1, .i32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64x1, .f32⟩
  | .hbm, ⟨81, _⟩ => ⟨S64x128, .f32⟩
  | .hbm, ⟨82, _⟩ => ⟨S64x128, .f32⟩
  | .hbm, ⟨83, _⟩ => ⟨S64x1, .f32⟩
  | .hbm, ⟨84, _⟩ => ⟨S_, .f32⟩
  | .hbm, ⟨85, _⟩ => ⟨S64x1, .f32⟩
  | .hbm, ⟨86, _⟩ => ⟨S64x1, .i1⟩
  | .hbm, ⟨87, _⟩ => ⟨S1x128, .f32⟩
  | .hbm, ⟨88, _⟩ => ⟨S_, .f32⟩
  | .hbm, ⟨89, _⟩ => ⟨S_, .f32⟩
  | .hbm, ⟨90, _⟩ => ⟨S64x128, .i1⟩
  | .hbm, ⟨91, _⟩ => ⟨S64x128, .f32⟩
  | .hbm, ⟨92, _⟩ => ⟨S64x128, .f32⟩
  | .hbm, ⟨93, _⟩ => ⟨S64x128, .f32⟩
  | .hbm, ⟨94, _⟩ => ⟨S64x128, .f32⟩
  | .hbm, ⟨95, _⟩ => ⟨S128x8, .bf16⟩
  | .hbm, ⟨96, _⟩ => ⟨S1x8, .f32⟩
  | .hbm, ⟨97, _⟩ => ⟨S64x8, .f32⟩
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S4000x1, .f32⟩
  | .local _ .vmem, ⟨11, _⟩ => ⟨S4000x1, .f32⟩
  | .local _ .vmem, ⟨12, _⟩ => ⟨S128x128, .bf16⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S4000x128, .f32⟩
  | .local _ .vmem, ⟨20, _⟩ => ⟨S4000x128, .f32⟩
  | .local _ .vmem, ⟨21, _⟩ => ⟨S64x128, .f32⟩
  | .local _ .vmem, ⟨22, _⟩ => ⟨S128x8, .bf16⟩
  | .local _ .vmem, ⟨23, _⟩ => ⟨S1x8, .f32⟩
  | .local _ .vmem, ⟨24, _⟩ => ⟨S64x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem1_0 : DmaSem sig := 22
abbrev cc3_sem2_0 : DmaSem sig := 23
abbrev cc3_sem3_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x8 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S_S64x1 : S_.BroadcastsInDim S64x1 (![] : Fin 0 → Fin S64x1.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x8.size a ≤ S128x8.size a
  hwx3_1 : ∀ i : grid3.Coords, EltTy.bits .bf16 = 32 ∨ (Rect.block (s := S128x8) S128x8.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x8.size a ≤ S64x8.size a
  hwx3_3 : ∀ i : grid3.Coords, EltTy.bits .f32 = 32 ∨ (Rect.block (s := S64x8) S64x8.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S64x8.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S64x128, .f32⟩
  | .hbm, ⟨97, _⟩ => ⟨S100000x1, .i32⟩
  | .hbm, ⟨98, _⟩ => ⟨S64x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x128, .f32⟩
  | .hbm, ⟨110, _⟩ => ⟨S64x128, .f32⟩
  | .hbm, ⟨111, _⟩ => ⟨S64x8, .f32⟩
  | .hbm, ⟨112, _⟩ => ⟨S1x8, .f32⟩
  | .hbm, ⟨113, _⟩ => ⟨S64x8, .f32⟩
  | .hbm, ⟨114, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.KernelRun.lean ====
/-
  The idealized kernel's run with its result named.

  The program is twelve segments: stretches of host operations and four kernel regions. The contents of every
  unscoped buffer at each segment boundary are a fold from the launch memory (`Gen.W0` … `Gen.W12`). The segments are
  launched from the thread state "every unscoped buffer at the launch contents", each segment hands the next the
  state at its boundary's contents, and every unscoped buffer of the last thread state is read against the final
  memory. So the result buffer ends at the last fold's contents, beside the arguments as launched.
-/
import proofs.«171166_j2619930050604_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents the
    fold through the segments gives it, and the argument arrays end as launched. -/
theorem run_result : θ_run defs (onTc (τ := τ) (main (F := F))) ⟨m, fun _ => 0, ρ⟩ (fun r => ∀ c : Dev nD,
      r.2.mem ((c.tc : Thread nD τ).loc main_v65) = W12 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v65 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Run

end
-- ==== Proof.LibSegmentRows.lean ====
/-
  The accumulating scatter of the rows of a matrix of updates into the rows of a matrix that a column of integer
  labels names (a segment sum of rows: result row r is the operand's row r plus the sum of the update rows whose
  label is r), read at an entry of the result.
-/
import Idealize.ShloMosaic.Lib.ValueIdx
import Idealize.ShloMosaic.PureOps.Ideal

open scoped BigOperators

namespace Cert.Lib.SegmentRows

open Idealize.ShloMosaic Idealize.ShloMosaic.ValueIdx

/-- The scatter dimension numbers of a segment sum of rows: an operand `[N, D]`, scatter indices `[K, 1]` (one
    label per update row, the index vector on the last axis), updates `[K, D]`; the updates' second axis is the
    window (a whole row), the operand's first axis is inserted and named by the one index component. Their
    conditions `wf` are decided on a program's literal shapes. -/
abbrev segRowsDims (N K D : Nat) (wf : ScatterDims.WF ⟨2, ![N, D]⟩ ⟨2, ![K, 1]⟩ ⟨2, ![K, D]⟩ [1] [0] [0] 1) :
    ScatterDims ⟨2, ![N, D]⟩ ⟨2, ![K, 1]⟩ ⟨2, ![K, D]⟩ where
  updateWindowDims := [1]
  insertedWindowDims := [0]
  scatterDimsToOperandDims := [0]
  indexVectorDim := 1
  wf := wf

section
variable {N K D w : Nat} (wf : ScatterDims.WF ⟨2, ![N, D]⟩ ⟨2, ![K, 1]⟩ ⟨2, ![K, D]⟩ [1] [0] [0] 1)
  (idx : IVec ⟨2, ![K, 1]⟩ w) (e : Fin K) (d : Fin D)

/-- On the row axis, the window of update entry `(e, d)` starts at row `e`'s label, read signed. -/
theorem segRows_start0 : (segRowsDims N K D wf).start (ix2 e d) idx (0 : Fin 2) = (idx (ix2 e (0 : Fin 1))).toInt := by
  unfold ScatterDims.start
  rw [dif_pos (show (0 : Fin 2) ∈ (segRowsDims N K D wf).scatterDimsToOperandDims from List.mem_singleton.mpr rfl)]
  have hsi : (segRowsDims N K D wf).siIdx (ix2 e d) ⟨List.idxOf (0 : Fin 2) (segRowsDims N K D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no index component names, it starts at 0. -/
theorem segRows_start1 : (segRowsDims N K D wf).start (ix2 e d) idx (1 : Fin 2) = 0 := by
  unfold ScatterDims.start
  rw [dif_neg (show ¬ (1 : Fin 2) ∈ (segRowsDims N K D wf).scatterDimsToOperandDims from by
    show ¬ (1 : Fin 2) ∈ ([0] : List (Fin 2)); decide)]

/-- The row axis is inserted: no window coordinate on it. -/
theorem segRows_window0 : (segRowsDims N K D wf).window (ix2 e d) (0 : Fin 2) = 0 := by
  unfold ScatterDims.window
  rw [dif_neg]
  intro h
  have h2 := (List.mem_filter.mp h).2
  simp at h2

/-- The column axis carries the window: update entry `(e, d)` sits at column `d` of its row. -/
theorem segRows_window1 : (segRowsDims N K D wf).window (ix2 e d) (1 : Fin 2) = d.val := by
  unfold ScatterDims.window
  rw [dif_pos (show (1 : Fin 2) ∈ (segRowsDims N K D wf).sKept from by
    show (1 : Fin 2) ∈ (List.finRange 2).filter (· ∉ ([0] : List (Fin 2))); decide)]
  rfl

/-- Update entry `(e, d)` lands on operand entry `(r, c)` exactly when row `e`'s label, read signed, is `r` and
    `d` is `c`. -/
theorem segRows_resultIdx?_eq_some_iff (r : Fin N) (c : Fin D) :
    (segRowsDims N K D wf).resultIdx? (ix2 e d) idx = some (ix2 r c) ↔
      (idx (ix2 e (0 : Fin 1))).toInt = (r.val : Int) ∧ d = c := by
  have hr : r.val < N := r.isLt
  have hd : d.val < D := d.isLt
  unfold ScatterDims.resultIdx?
  by_cases hc : ∀ a, 0 ≤ (segRowsDims N K D wf).start (ix2 e d) idx a + (segRowsDims N K D wf).window (ix2 e d) a ∧
      (segRowsDims N K D wf).start (ix2 e d) idx a + (segRowsDims N K D wf).window (ix2 e d) a < (⟨2, ![N, D]⟩ : Shape).size a
  · rw [dif_pos hc]
    have h0 := hc (0 : Fin 2)
    rw [segRows_start0, segRows_window0] at h0
    constructor
    · intro h
      have h1 := congrArg Fin.val (congrFun (Option.some.inj h) (0 : Fin 2))
      have h2 : ((segRowsDims N K D wf).start (ix2 e d) idx (0 : Fin 2) + (segRowsDims N K D wf).window (ix2 e d) (0 : Fin 2)).toNat = r.val := h1
      rw [segRows_start0, segRows_window0] at h2
      have h3 := congrArg Fin.val (congrFun (Option.some.inj h) (1 : Fin 2))
      have h4 : ((segRowsDims N K D wf).start (ix2 e d) idx (1 : Fin 2) + (segRowsDims N K D wf).window (ix2 e d) (1 : Fin 2)).toNat = c.val := h3
      rw [segRows_start1, segRows_window1] at h4
      refine ⟨by omega, Fin.ext (by omega)⟩
    · rintro ⟨h, rfl⟩
      congr 1
      funext a
      refine Fin.ext ?_
      match a with
      | ⟨0, _⟩ =>
        show ((segRowsDims N K D wf).start (ix2 e d) idx (0 : Fin 2) + (segRowsDims N K D wf).window (ix2 e d) (0 : Fin 2)).toNat = r.val
        rw [segRows_start0, segRows_window0]
        omega
      | ⟨1, _⟩ =>
        show ((segRowsDims N K D wf).start (ix2 e d) idx (1 : Fin 2) + (segRowsDims N K D wf).window (ix2 e d) (1 : Fin 2)).toNat = d.val
        rw [segRows_start1, segRows_window1]
        omega
  · rw [dif_neg hc]
    constructor
    · intro h; cases h
    · rintro ⟨h, rfl⟩
      exfalso
      apply hc
      intro a
      match a with
      | ⟨0, _⟩ =>
        show 0 ≤ (segRowsDims N K D wf).start (ix2 e d) idx (0 : Fin 2) + (segRowsDims N K D wf).window (ix2 e d) (0 : Fin 2) ∧
          (segRowsDims N K D wf).start (ix2 e d) idx (0 : Fin 2) + (segRowsDims N K D wf).window (ix2 e d) (0 : Fin 2) < ((N : Nat) : Int)
        rw [segRows_start0, segRows_window0]
        omega
      | ⟨1, _⟩ =>
        show 0 ≤ (segRowsDims N K D wf).start (ix2 e d) idx (1 : Fin 2) + (segRowsDims N K D wf).window (ix2 e d) (1 : Fin 2) ∧
          (segRowsDims N K D wf).start (ix2 e d) idx (1 : Fin 2) + (segRowsDims N K D wf).window (ix2 e d) (1 : Fin 2) < ((D : Nat) : Int)
        rw [segRows_start1, segRows_window1]
        omega

end

/-- THE SEGMENT SUM OF ROWS READ AT `(r, c)`: the operand at `(r, c)` plus the sum, over the update rows whose
    label read signed is `r`, of their entry in column `c` (a label outside `[0, N)` names no row: its update row
    is dropped). -/
theorem hostScatterAdd_segRows_apply {N K D w : Nat}
    (wf : ScatterDims.WF ⟨2, ![N, D]⟩ ⟨2, ![K, 1]⟩ ⟨2, ![K, D]⟩ [1] [0] [0] 1)
    (x : (⟨2, ![N, D]⟩ : Shape).Idx → EReal) (idx : IVec ⟨2, ![K, 1]⟩ w) (upd : (⟨2, ![K, D]⟩ : Shape).Idx → EReal)
    (r : Fin N) (c : Fin D) :
    Ideal.hostScatterAdd (segRowsDims N K D wf) x idx upd (ix2 r c) =
      x (ix2 r c) + ∑ e : Fin K, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases h : (idx (ix2 e (0 : Fin 1))).toInt = (r.val : Int)
  · rw [if_pos h]
    rw [Finset.sum_eq_single c]
    · rw [if_pos ((segRows_resultIdx?_eq_some_iff wf idx e c r c).2 ⟨h, rfl⟩)]
    · intro d _ hd
      rw [if_neg (fun h' => hd ((segRows_resultIdx?_eq_some_iff wf idx e d r c).1 h').2)]
    · intro hc; exact absurd (Finset.mem_univ c) hc
  · rw [if_neg h]
    refine Finset.sum_eq_zero fun d _ => ?_
    rw [if_neg (fun h' => h ((segRows_resultIdx?_eq_some_iff wf idx e d r c).1 h').1)]

end Cert.Lib.SegmentRows
-- ==== Proof.LibSegmentSum.lean ====
/-
  The accumulating scatter of a flat array of updates into the segments a flat array of integer labels names
  (a segment sum: result element b is the operand's element plus the sum of the updates whose label is b),
  read at an index of the result.
-/
import Idealize.ShloMosaic.Lib.ValueIdx

open scoped BigOperators

namespace Cert.Lib

open Idealize.ShloMosaic Idealize.ShloMosaic.ValueIdx

/-- The scatter dimension numbers of a segment sum: an operand `[N]`, scatter indices `[K, 1]` (one label per
    update, the index vector on the last axis), updates `[K]`; no window axis, the operand's one axis inserted and
    named by the one index component. Their conditions `wf` are decided on a program's literal shapes. -/
abbrev segDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- The scatter-indices index `[j, 0]` of update index `j`. -/
abbrev segIdx {K : Nat} (j : (⟨1, ![K]⟩ : Shape).Idx) : (⟨2, ![K, 1]⟩ : Shape).Idx :=
  fun a => match a with | ⟨0, _⟩ => ⟨(j 0).val, (j 0).isLt⟩ | ⟨1, _⟩ => ⟨0, Nat.one_pos⟩

section
variable {N K w : Nat} (wf : ScatterDims.WF ⟨1, ![N]⟩ ⟨2, ![K, 1]⟩ ⟨1, ![K]⟩ [] [0] [0] 1)
  (idx : IVec ⟨2, ![K, 1]⟩ w) (j : (⟨1, ![K]⟩ : Shape).Idx)

/-- Update `j`'s window starts at its label, read signed. -/
theorem seg_start (a : Fin 1) : (segDims N K wf).start j idx a = (idx (segIdx j)).toInt := by
  obtain rfl : a = 0 := Subsingleton.elim _ _
  unfold ScatterDims.start
  rw [dif_pos (show (0 : Fin 1) ∈ (segDims N K wf).scatterDimsToOperandDims from List.mem_singleton.mpr rfl)]
  have hsi : (segDims N K wf).siIdx j ⟨List.idxOf (0 : Fin 1) (segDims N K wf).scatterDimsToOperandDims,
      List.idxOf_lt_length_iff.2 (List.mem_singleton.mpr rfl)⟩ = segIdx j := by
    funext b; refine Fin.ext ?_
    match b with
    | ⟨0, _⟩ => rfl
    | ⟨1, _⟩ => rfl
  rw [hsi]

/-- There is no window: the operand's one axis is inserted. -/
theorem seg_window (a : Fin 1) : (segDims N K wf).window j a = 0 := by
  unfold ScatterDims.window
  rw [dif_neg]
  intro h
  obtain rfl : a = 0 := Subsingleton.elim _ _
  have h2 := (List.mem_filter.mp h).2
  simp at h2

/-- Update `j` lands on operand element `i` exactly when its label, read signed, is `i`'s coordinate. -/
theorem seg_resultIdx?_eq_some_iff (i : (⟨1, ![N]⟩ : Shape).Idx) :
    (segDims N K wf).resultIdx? j idx = some i ↔ (idx (segIdx j)).toInt = ((i 0).val : Int) := by
  have hi : (i 0).val < N := (i 0).isLt
  unfold ScatterDims.resultIdx?
  by_cases hc : ∀ a, 0 ≤ (segDims N K wf).start j idx a + (segDims N K wf).window j a ∧
      (segDims N K wf).start j idx a + (segDims N K wf).window j a < (⟨1, ![N]⟩ : Shape).size a
  · rw [dif_pos hc]
    have h0 := hc 0
    rw [seg_start, seg_window] at h0
    constructor
    · intro h
      have h1 := congrArg Fin.val (congrFun (Option.some.inj h) 0)
      have h2 : ((segDims N K wf).start j idx 0 + (segDims N K wf).window j 0).toNat = (i 0).val := h1
      rw [seg_start, seg_window] at h2
      omega
    · intro h
      congr 1
      funext a
      obtain rfl : a = 0 := Subsingleton.elim _ _
      refine Fin.ext ?_
      show ((segDims N K wf).start j idx 0 + (segDims N K wf).window j 0).toNat = (i 0).val
      rw [seg_start, seg_window]
      omega
  · rw [dif_neg hc]
    constructor
    · intro h; cases h
    · intro h
      exfalso
      apply hc
      intro a
      obtain rfl : a = 0 := Subsingleton.elim _ _
      rw [seg_start, seg_window]
      show 0 ≤ (idx (segIdx j)).toInt + ((0 : Nat) : Int) ∧ (idx (segIdx j)).toInt + ((0 : Nat) : Int) < ((N : Nat) : Int)
      omega

end

/-- THE SEGMENT SUM READ AT `b`: the operand at `b` plus the sum of the updates whose label, read signed, is `b`
    (a label outside `[0, N)` names no element: its update is dropped). -/
theorem hostScatterAdd_seg_apply {N K w : Nat} (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (b : (⟨1, ![N]⟩ : Shape).Idx) :
    Ideal.hostScatterAdd (segDims N K wf) x idx upd b =
      x b + ∑ j : (⟨1, ![K]⟩ : Shape).Idx, if (idx (segIdx j)).toInt = ((b 0).val : Int) then upd j else 0 := by
  unfold Ideal.hostScatterAdd
  congr 1
  rw [Finset.sum_filter]
  refine Finset.sum_congr rfl fun j _ => ?_
  by_cases h : (idx (segIdx j)).toInt = ((b 0).val : Int)
  · rw [if_pos h, if_pos ((seg_resultIdx?_eq_some_iff wf idx j b).2 h)]
  · rw [if_neg h, if_neg (fun h' => h ((seg_resultIdx?_eq_some_iff wf idx j b).1 h'))]

end Cert.Lib
-- ==== Proof.LibRowGather.lean ====
/-
  Picking rows by an array of integers.

  What `x[idx]` lowers to when `idx` is a vector of R integers presented as an [R, 1] array of start indices: a
  gather that collapses the operand's first axis, takes slices of one row, and reads the one component of each start
  index along the second axis of the start indices. Two operand ranks occur: a vector of N numbers (the result is a
  vector of R numbers) and an N-by-C matrix (the result is the R-by-C matrix of the picked rows). In both, result
  row p reads operand row `clampRow N (idx[p, 0])`: the start index read as a signed integer and clamped into
  [0, N - 1], so a negative index reads row 0 and an index past the end reads the last row. Consequently a quantity
  computed row by row from a matrix, then picked, is the same quantity computed from the picked rows.
-/
import Idealize.ShloMosaic.PureOps.ShapeOps
import Idealize.ShloMosaic.PureOps.Dims
import Idealize.ShloMosaic.Lib.ValueIdx

noncomputable section

namespace Cert.Lib.RowGather

open Idealize.ShloMosaic Idealize.ShloMosaic.ValueIdx

/-- The operand row a start index word selects among N rows: the word read signed, clamped into [0, N - 1]. -/
def clampRow (N : Nat) (hN : 0 < N) {w : Nat} (v : BitVec w) : Fin N := ⟨min v.toInt.toNat (N - 1), by omega⟩

/-- The dimension numbers of picking entries of a vector of N numbers by an [R, 1] array of start indices. -/
abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of picking rows of an N-by-C matrix by an [R, 1] array of start indices. -/
abbrev pickRowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry p of the picked vector is the operand's entry at the clamped p-th start index. -/
theorem pick_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (pickDims N R wf) x idx (ix1 p)
      = x (ix1 (clampRow N hN (idx (ix2 (n0 := R) (n1 := 1) p ⟨0, Nat.one_pos⟩)))) := by
  unfold Host.gather
  congr 1
  funext a
  obtain rfl : a = 0 := Subsingleton.elim _ _
  refine Fin.ext ?_
  show (pickDims N R wf).start (ix1 p) idx 0 + (pickDims N R wf).batchCoord (ix1 p) 0 + (pickDims N R wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 p) ⟨List.idxOf (0 : Fin 1) (pickDims N R wf).startIndexMap,
      List.idxOf_lt_length_iff.2 (List.mem_singleton.mpr rfl)⟩ = ix2 (n0 := R) (n1 := 1) p ⟨0, Nat.one_pos⟩ := by
    funext b; refine Fin.ext ?_
    match b with
    | ⟨0, _⟩ => rfl
    | ⟨1, _⟩ => rfl
  rw [hsi]
  rfl

/-- Entry (p, q) of the picked rows is the operand's entry in column q of the row at the clamped p-th start index. -/
theorem pickRows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (pickRowsDims N C R wf) x idx (ix2 p q)
      = x (ix2 (clampRow N hN (idx (ix2 (n0 := R) (n1 := 1) p ⟨0, Nat.one_pos⟩))) q) := by
  have key0 : (pickRowsDims N C R wf).start (ix2 p q) idx (0 : Fin 2) + (pickRowsDims N C R wf).batchCoord (ix2 p q) (0 : Fin 2)
      + (pickRowsDims N C R wf).offCoord (ix2 p q) (0 : Fin 2)
      = (clampRow N hN (idx (ix2 (n0 := R) (n1 := 1) p ⟨0, Nat.one_pos⟩))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRowsDims N C R wf).startIndexMap from List.mem_singleton.mpr rfl)]
    have hsi : (pickRowsDims N C R wf).siIdx (ix2 p q) ⟨List.idxOf (0 : Fin 2) (pickRowsDims N C R wf).startIndexMap,
        List.idxOf_lt_length_iff.2 (List.mem_singleton.mpr rfl)⟩ = ix2 (n0 := R) (n1 := 1) p ⟨0, Nat.one_pos⟩ := by
      funext b; refine Fin.ext ?_
      match b with
      | ⟨0, _⟩ => rfl
      | ⟨1, _⟩ => rfl
    rw [hsi]
    rfl
  have h1m : ¬ (1 : Fin 2) ∈ (pickRowsDims N C R wf).startIndexMap := by
    show ¬ (1 : Fin 2) ∈ ([0] : List (Fin 2)); decide
  have h1c : ¬ (1 : Fin 2) ∈ (pickRowsDims N C R wf).collapsedSliceDims := by
    show ¬ (1 : Fin 2) ∈ ([0] : List (Fin 2)); decide
  have h1k : (1 : Fin 2) ∈ (pickRowsDims N C R wf).sKept := (GatherDims.mem_sKept _ _).mpr ⟨h1c, List.not_mem_nil⟩
  have key1 : (pickRowsDims N C R wf).start (ix2 p q) idx (1 : Fin 2) + (pickRowsDims N C R wf).batchCoord (ix2 p q) (1 : Fin 2)
      + (pickRowsDims N C R wf).offCoord (ix2 p q) (1 : Fin 2) = q.val := by
    rw [GatherDims.batchCoord_eq_zero _ _ _ List.not_mem_nil]
    unfold GatherDims.start
    rw [dif_neg h1m]
    unfold GatherDims.offCoord
    rw [dif_pos h1k]
    simp only [Nat.add_zero, Nat.zero_add]
    rfl
  unfold Host.gather
  congr 1
  funext a
  refine Fin.ext ?_
  match a with
  | ⟨0, _⟩ => exact key0
  | ⟨1, _⟩ => exact key1

end Cert.Lib.RowGather

end
-- ==== Proof.Stages.lean ====
/-
  A two-layer graph convolution with mean pooling, written twice as whole-array functions at the extended reals.

  N = 100000 nodes carry 128 features; E = 1600000 directed edges are given as two rows of node numbers, and every
  node gets a loop, so there are K = E + N edge slots with sources `src` and targets `dst`. The degree of a node
  is the number of slots whose target it is; `dinv` is 1/sqrt(degree) (0 where the degree is 0). One convolution of a
  feature matrix M sends along every slot e the row M[src e] scaled by dinv[src e] * dinv[dst e] and adds it into row
  dst e. The network is  relu(conv(x W1) + b1),  conv(. W2) + b2,  the mean of the rows of each of 64 graphs
  (labels `batch`, the divisor at least 1), and a last product with `lin_W` plus `lin_b`.

  `outRef` scales per slot, as stated above. `outKer` scales the rows before they are sent (by dinv of the source) and
  after they are added (by dinv of the target), and adds b2 after the mean, where the graph has a node. The two are
  shown equal in Algebra.lean; here are only the definitions, over literal shapes and with the index conventions of
  the host operations (a negative index wraps once by N and is then clamped for a read; an update whose target is
  outside [0, N) is dropped).
-/
import Idealize.ShloMosaic.PureOps.Ideal
import Idealize.ShloMosaic.PureOps.ShapeOps
import Idealize.ShloMosaic.PureOps.Dims
import proofs.«171166_j2619930050604_2_alg».proof.Proof.LibSegmentRows
import proofs.«171166_j2619930050604_2_alg».proof.Proof.LibSegmentSum
import proofs.«171166_j2619930050604_2_alg».proof.Proof.LibRowGather

noncomputable section

namespace Cert.Stages

open Idealize.ShloMosaic

/-! ## Shapes -/
abbrev s0 : Shape := ⟨0, ![]⟩
abbrev sN : Shape := ⟨1, ![100000]⟩
abbrev sE0 : Shape := ⟨1, ![1600000]⟩
abbrev sE : Shape := ⟨1, ![1700000]⟩
abbrev sEI : Shape := ⟨2, ![2, 1600000]⟩
abbrev sEI1 : Shape := ⟨2, ![1, 1600000]⟩
abbrev sEc : Shape := ⟨2, ![1700000, 1]⟩
abbrev sNc : Shape := ⟨2, ![100000, 1]⟩
abbrev sNH : Shape := ⟨2, ![100000, 128]⟩
abbrev sEH : Shape := ⟨2, ![1700000, 128]⟩
abbrev sHH : Shape := ⟨2, ![128, 128]⟩
abbrev sH : Shape := ⟨1, ![128]⟩
abbrev s1H : Shape := ⟨2, ![1, 128]⟩
abbrev sG : Shape := ⟨1, ![64]⟩
abbrev sGc : Shape := ⟨2, ![64, 1]⟩
abbrev sGH : Shape := ⟨2, ![64, 128]⟩
abbrev sHC : Shape := ⟨2, ![128, 8]⟩
abbrev sC : Shape := ⟨1, ![8]⟩
abbrev s1C : Shape := ⟨2, ![1, 8]⟩
abbrev sGC : Shape := ⟨2, ![64, 8]⟩

/-! ## Dimension numbers -/
/-- Rows of K slots added into N node rows. -/
abbrev scEdgeRows : ScatterDims sNH sEc sEH := Cert.Lib.SegmentRows.segRowsDims 100000 1700000 128 (by decide)
/-- Rows of N nodes added into 64 graph rows. -/
abbrev scPoolRows : ScatterDims sGH sNc sNH := Cert.Lib.SegmentRows.segRowsDims 64 100000 128 (by decide)
/-- K numbers added into N counters. -/
abbrev scEdge : ScatterDims sN sEc sE := Cert.Lib.segDims 100000 1700000 (by decide)
/-- N numbers added into 64 counters. -/
abbrev scPool : ScatterDims sG sNc sN := Cert.Lib.segDims 64 100000 (by decide)
/-- K rows picked among N. -/
abbrev gaRows : GatherDims sNH sEc sEH := Cert.Lib.RowGather.pickRowsDims 100000 128 1700000 (by decide)
/-- K numbers picked among N. -/
abbrev gaVec : GatherDims sN sEc sE := Cert.Lib.RowGather.pickDims 100000 1700000 (by decide)
abbrev dotNH : DotDims sNH sHH sNH := DotDims.plain 100000 128 128
abbrev dotGC : DotDims sGH sHC sGC := DotDims.plain 64 128 8

/-! ## Constants -/
def zeroN : FVec Ideal sN .f32 := broadcastInDim sN ![] (by decide) (constant (F := Ideal) s0 .f32 0x00000000#32)
def oneN : FVec Ideal sN .f32 := broadcastInDim sN ![] (by decide) (constant (F := Ideal) s0 .f32 0x3F800000#32)
def oneE : FVec Ideal sE .f32 := broadcastInDim sE ![] (by decide) (constant (F := Ideal) s0 .f32 0x3F800000#32)
def zeroNH : FVec Ideal sNH .f32 := broadcastInDim sNH ![] (by decide) (constant (F := Ideal) s0 .f32 0x00000000#32)
def zeroG : FVec Ideal sG .f32 := broadcastInDim sG ![] (by decide) (constant (F := Ideal) s0 .f32 0x00000000#32)
def oneG : FVec Ideal sG .f32 := broadcastInDim sG ![] (by decide) (constant (F := Ideal) s0 .f32 0x3F800000#32)
def zeroGH : FVec Ideal sGH .f32 := broadcastInDim sGH ![] (by decide) (constant (F := Ideal) s0 .f32 0x00000000#32)
def zeroGc : FVec Ideal sGc .f32 := broadcastInDim sGc ![] (by decide) (constant (F := Ideal) s0 .f32 0x00000000#32)

/-! ## The edge slots and the normalisation (shared) -/

/-- Row `r` of the edge list followed by 0, 1, …, N-1. -/
def endpoints (r : Nat) (h : sEI.Slices ![r, 0] sEI1) (ei : IVec sEI 32) : IVec sE 32 :=
  concatenate sE 0 [⟨sE0, shapeCast sE0 (extractStridedSlice sEI1 ![r, 0] ei h) (by decide)⟩, ⟨sN, iotaInDim sN 32 0⟩]
    (show Shape.Concatenates [sE0, sN] sE 0 by decide)
def src (ei : IVec sEI 32) : IVec sE 32 := endpoints 0 (by decide) ei
def dst (ei : IVec sEI 32) : IVec sE 32 := endpoints 1 (by decide) ei

/-- A vector of K words as a column. -/
def colE (v : IVec sE 32) : IVec sEc 32 := broadcastInDim sEc ![0] (by decide) v
/-- A negative word moved up by N once; the others kept. -/
def wrapN (v : IVec sE 32) : IVec sE 32 :=
  select (cmpi .slt v (broadcastInDim sE ![] (by decide) (constantI s0 32 0#32)))
    (addi v (broadcastInDim sE ![] (by decide) (constantI s0 32 100000#32))) v

/-- The number of slots whose target is each node (`d` the targets). -/
def deg (d : IVec sE 32) : FVec Ideal sN .f32 := Host.scatterAdd scEdge zeroN (colE d) oneE
/-- 1/sqrt(max(deg, 1)) where deg > 0, else 0. -/
def dinv (d : IVec sE 32) : FVec Ideal sN .f32 :=
  select (cmpf .ogt (deg d) zeroN) (Host.rsqrt (maximumf (deg d) oneN)) zeroN

/-! ## The reference (`s` the sources, `d` the targets of the K slots) -/

/-- dinv[s e] * dinv[d e] per slot. -/
def norm (s d : IVec sE 32) : FVec Ideal sE .f32 :=
  mulf (Host.gather gaVec (dinv d) (colE (wrapN s))) (Host.gather gaVec (dinv d) (colE (wrapN d)))
def normMat (s d : IVec sE 32) : FVec Ideal sEH .f32 :=
  broadcastInDim sEH ![0, 1] (by decide) (broadcastInDim sEc ![0] (by decide) (norm s d))
/-- One convolution, scaled per slot. -/
def convRef (M : FVec Ideal sNH .f32) (s d : IVec sE 32) : FVec Ideal sNH .f32 :=
  Host.scatterAdd scEdgeRows zeroNH (colE d) (mulf (Host.gather gaRows M (colE (wrapN s))) (normMat s d))
/-- A bias of 128 numbers added to every node row. -/
def biasN (b : FVec Ideal sH .f32) : FVec Ideal sNH .f32 :=
  broadcastInDim sNH ![0, 1] (by decide) (broadcastInDim s1H ![1] (by decide) b)
def h1Ref (x : FVec Ideal sNH .f32) (s d : IVec sE 32) (w1 : FVec Ideal sHH .f32) (b1 : FVec Ideal sH .f32) : FVec Ideal sNH .f32 :=
  maximumf (addf (convRef (Host.dotGeneral dotNH none x w1) s d) (biasN b1)) zeroNH
def h2Ref (x : FVec Ideal sNH .f32) (s d : IVec sE 32) (w1 : FVec Ideal sHH .f32) (b1 : FVec Ideal sH .f32)
    (w2 : FVec Ideal sHH .f32) (b2 : FVec Ideal sH .f32) : FVec Ideal sNH .f32 :=
  addf (convRef (Host.dotGeneral dotNH none (h1Ref x s d w1 b1) w2) s d) (biasN b2)
/-- The graph labels as a column. -/
def colN (bt : IVec sN 32) : IVec sNc 32 := broadcastInDim sNc ![0] (by decide) bt
/-- The number of nodes of each graph. -/
def cnts (bt : IVec sN 32) : FVec Ideal sG .f32 := Host.scatterAdd scPool zeroG (colN bt) oneN
/-- max(count, 1) carried along the 128 columns. -/
def cntMat (bt : IVec sN 32) : FVec Ideal sGH .f32 :=
  broadcastInDim sGH ![0, 1] (by decide) (broadcastInDim sGc ![0] (by decide) (maximumf (cnts bt) oneG))
/-- The sum of the rows of each graph, divided by max(count, 1). -/
def meanRows (h : FVec Ideal sNH .f32) (bt : IVec sN 32) : FVec Ideal sGH .f32 :=
  Host.divf (Host.scatterAdd scPoolRows zeroGH (colN bt) h) (cntMat bt)
/-- A row of 8 numbers added to every graph row. -/
def biasG (lb1 : FVec Ideal s1C .f32) : FVec Ideal sGC .f32 := broadcastInDim sGC ![0, 1] (by decide) lb1
def outRef (x : FVec Ideal sNH .f32) (s d : IVec sE 32) (bt : IVec sN 32) (w1 : FVec Ideal sHH .f32) (b1 : FVec Ideal sH .f32)
    (w2 : FVec Ideal sHH .f32) (b2 : FVec Ideal sH .f32) (lw : FVec Ideal sHC .f32) (lb : FVec Ideal sC .f32) : FVec Ideal sGC .f32 :=
  addf (Host.dotGeneral dotGC none (meanRows (h2Ref x s d w1 b1 w2 b2) bt) lw) (biasG (broadcastInDim s1C ![1] (by decide) lb))

/-! ## The kernel -/

/-- dinv as a column, and carried along the 128 columns. -/
def dinvCol (d : IVec sE 32) : FVec Ideal sNc .f32 := shapeCast sNc (dinv d) (by decide)
def dinvMat (d : IVec sE 32) : FVec Ideal sNH .f32 := broadcastInDim sNH ![0, 1] (by decide) (dinvCol d)
/-- Rows sent along the slots and added, with no scaling. -/
def aggKer (M : FVec Ideal sNH .f32) (s d : IVec sE 32) : FVec Ideal sNH .f32 :=
  Host.scatterAdd scEdgeRows zeroNH (colE d) (Host.gather gaRows M (colE (wrapN s)))
/-- A product of node rows with a 128-by-128 matrix, its rows then scaled by a column `dc` (the first kernel region on
    the whole arrays). -/
def scaledDot (X : FVec Ideal sNH .f32) (w : FVec Ideal sHH .f32) (dc : FVec Ideal sNc .f32) : FVec Ideal sNH .f32 :=
  mulf (Host.dotGeneral dotNH none X w) (broadcastInDim sNH ![0, 1] (by decide) dc)
/-- Rows scaled by a column, a bias row added, negative entries cut to 0 (the head of the second kernel region). -/
def scaleBiasRelu (A : FVec Ideal sNH .f32) (dc : FVec Ideal sNc .f32) (br : FVec Ideal s1H .f32) : FVec Ideal sNH .f32 :=
  maximumf (addf (mulf A (broadcastInDim sNH ![0, 1] (by decide) dc)) (broadcastInDim sNH ![0, 1] (by decide) br)) zeroNH
/-- Rows scaled by a column (the third kernel region). -/
def scaleRows (A : FVec Ideal sNH .f32) (dc : FVec Ideal sNc .f32) : FVec Ideal sNH .f32 :=
  mulf A (broadcastInDim sNH ![0, 1] (by decide) dc)
/-- A product of 64 graph rows with a 128-by-8 matrix plus a bias row (the fourth kernel region). -/
def lastLayer (P : FVec Ideal sGH .f32) (lw : FVec Ideal sHC .f32) (lbr : FVec Ideal s1C .f32) : FVec Ideal sGC .f32 :=
  addf (Host.dotGeneral dotGC none P lw) (biasG lbr)
/-- b2 where the graph has a node, 0 elsewhere. -/
def biasWhere (bt : IVec sN 32) (b2 : FVec Ideal sH .f32) : FVec Ideal sGH .f32 :=
  select (broadcastInDim sGH ![0, 1] (by decide) (cmpf .ogt (broadcastInDim sGc ![0] (by decide) (cnts bt)) zeroGc))
    (broadcastInDim sGH ![0, 1] (by decide) (broadcastInDim s1H ![1] (by decide) b2)) zeroGH
/-- The pooled rows the kernel hands to its last region. -/
def pooledKer (h2 : FVec Ideal sNH .f32) (bt : IVec sN 32) (b2 : FVec Ideal sH .f32) : FVec Ideal sGH .f32 :=
  addf (meanRows h2 bt) (biasWhere bt b2)
def outKer (x : FVec Ideal sNH .f32) (s d : IVec sE 32) (bt : IVec sN 32) (w1 : FVec Ideal sHH .f32) (b1 : FVec Ideal sH .f32)
    (w2 : FVec Ideal sHH .f32) (b2 : FVec Ideal sH .f32) (lw : FVec Ideal sHC .f32) (lb : FVec Ideal sC .f32) : FVec Ideal sGC .f32 :=
  lastLayer
    (pooledKer
      (scaleRows
        (aggKer
          (scaledDot (scaleBiasRelu (aggKer (scaledDot x w1 (dinvCol d)) s d) (dinvCol d) (shapeCast s1H b1 (by decide))) w2 (dinvCol d))
          s d)
        (dinvCol d))
      bt b2)
    lw (shapeCast s1C lb (by decide))

end Cert.Stages

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«171166_j2619930050604_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«171166_j2619930050604_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«171166_j2619930050604_2_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«171166_j2619930050604_2_alg».proof.Proof.LibPlainRecord
import proofs.«171166_j2619930050604_2_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«171166_j2619930050604_2_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.KernelBlocks.lean ====
/-
  The four kernel regions of the idealized program, each read as one function of whole arrays.

  A region walks its grid; at each point the body sees a block of rows of each row-blocked array (and the whole of each
  small array) and stores one block of rows of its result. Every operation of the bodies acts on each row by itself, so
  the block the body stores is that block of rows of the corresponding whole-array function; the blocks of the 25 points
  are 25 * 4000 = 100000 consecutive rows, which is every row. So the result array ends holding the whole-array function.
  The last region has one point whose blocks are the whole arrays.
-/
import proofs.«171166_j2619930050604_2_alg».proof.Proof.Gen.KernelIdeal.Frame
import proofs.«171166_j2619930050604_2_alg».proof.Proof.Stages
import proofs.«171166_j2619930050604_2_alg».proof.Proof.LibBlockFormats
import proofs.«171166_j2619930050604_2_alg».proof.Proof.LibOuterBlock
import proofs.«171166_j2619930050604_2_alg».proof.Proof.LibRowRead

set_option maxRecDepth 16384

noncomputable section

namespace Cert.KernelIdeal.Blocks

open Cert.KernelIdeal
open Idealize.ShloMosaic Idealize.ShloMosaic.TcCoe Idealize.ShloMosaic.ValueIdx
open Idealize.SL.Sem
open Idealize.ShloMosaic.Pipeline (Dat)
open Cert.Lib.DenseLayer

variable (V : (c : Dev nD) → (b : Ref sig .tc) → Buf (Elt Ideal) ((c : Thread nD τ).loc b))

/-- A rectangle that starts at the origin. -/
theorem hz : (![0, 0] : Fin 2 → Nat) = fun _ => 0 := funext fun a => by fin_cases a <;> rfl

/-! ## The first region: a product with a 128-by-128 matrix, the rows then scaled by a column -/

/-- The program's record of the block product and the host's record of the whole product are the plain ones. -/
theorem plainBlk : Plain dot_S4000x128_S128x128_S4000x128_1_0_0_1_n_n :=
  Plain.of_fields dot_S4000x128_S128x128_S4000x128_1_0_0_1_n_n rfl rfl rfl rfl rfl rfl
theorem plainNH : Plain Cert.Stages.dotNH :=
  Plain.of_fields (DotDims.plain 100000 128 128) rfl rfl rfl rfl rfl rfl

/-- The body's arithmetic on a block of rows is the block of rows of the whole-array function. -/
theorem pay0_rows {off : Nat} {xb : FVec Ideal S4000x128 .bf16} {db : FVec Ideal S4000x1 .f32}
    {X : FVec Ideal Cert.Stages.sNH .f32} {D : FVec Ideal Cert.Stages.sNc .f32} (w : FVec Ideal S128x128 .bf16)
    (hx : RowBlk off xb X) (hd : RowBlk off db D) :
    RowBlk off (Gen.k0_pay1 (F := Ideal) xb w db) (Cert.Stages.scaledDot X w D) := by
  unfold Gen.k0_pay1 Cert.Stages.scaledDot
  simp only [shapeCast_self]
  exact RowBlk.mul (RowBlk.matmulZero plainBlk plainNH hx w) (RowBlk.col hd _ _)

/-- The printed index maps over the grid: every row-blocked window is at row block `t`, column block 0; the matrix
    window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The first window's block at point `t` is rows 4000 t … of its array. -/
theorem iblk0_0_rows (c : Dev nD) (t : Fin cfg0.N) :
    RowBlk (t.val * 4000) (Gen.iblk0 (F := Ideal) V c 0 t : FVec Ideal S4000x128 .bf16)
      (V c (Pipeline.arrRef spec0 0) : FVec Ideal Cert.Stages.sNH .f32) := by
  obtain ⟨e0, e1, -⟩ := idx0 t
  refine RowBlk.of_read (fun y => ((cfg0.win 0).blk t).view.emb y) (fun y => ?_) (fun y => ?_) (fun y => rfl)
  · show win0_0.index t (0 : Fin 2) * 4000 + 1 * (y 0).val = _
    rw [e0]; omega
  · show win0_0.index t (1 : Fin 2) * 128 + 1 * (y 1).val = _
    rw [e1]; omega

/-- The matrix window's block at every point is the whole matrix. -/
theorem iblk0_1_whole (c : Dev nD) (t : Fin cfg0.N) :
    (Gen.iblk0 (F := Ideal) V c 1 t : FVec Ideal S128x128 .bf16) = (V c (Pipeline.arrRef spec0 1) : FVec Ideal S128x128 .bf16) := by
  obtain ⟨-, -, e0, e1, -⟩ := idx0 t
  refine RowBlk.eq_whole (RowBlk.of_read (fun y => ((cfg0.win 1).blk t).view.emb y) (fun y => ?_) (fun y => ?_) (fun y => rfl))
  · show win0_1.index t (0 : Fin 2) * 128 + 1 * (y 0).val = _
    rw [e0]; omega
  · show win0_1.index t (1 : Fin 2) * 128 + 1 * (y 1).val = _
    rw [e1]; omega

/-- The column window's block at point `t` is rows 4000 t … of the column. -/
theorem iblk0_2_rows (c : Dev nD) (t : Fin cfg0.N) :
    RowBlk (t.val * 4000) (Gen.iblk0 (F := Ideal) V c 2 t : FVec Ideal S4000x1 .f32)
      (V c (Pipeline.arrRef spec0 2) : FVec Ideal Cert.Stages.sNc .f32) := by
  obtain ⟨-, -, -, -, e0, e1, -⟩ := idx0 t
  refine RowBlk.of_read (fun y => ((cfg0.win 2).blk t).view.emb y) (fun y => ?_) (fun y => ?_) (fun y => rfl)
  · show win0_2.index t (0 : Fin 2) * 4000 + 1 * (y 0).val = _
    rw [e0]; omega
  · show win0_2.index t (1 : Fin 2) * 1 + 1 * (y 1).val = _
    rw [e1]; omega

/-- What point `t` writes back is block `t` of the whole-array function of the arrays the region finds. -/
theorem flushed0 (c : Dev nD) (t : Fin cfg0.N) :
    (Gen.dat0 (F := Ideal) V c).flushed 3 t = ((cfg0.win 3).blk t).view.read (Elt Ideal)
      (Cert.Stages.scaledDot (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero hz]
  simp only [View.ld_unit_zero (S := S4000x128) hz, View.ld_unit_zero (S := S4000x1) hz, View.ld_unit_zero (S := S128x128) hz]
  rw [iblk0_1_whole V c t]
  obtain ⟨-, -, -, -, -, -, e0, e1⟩ := idx0 t
  funext y
  refine RowBlk.read (pay0_rows (V c (Pipeline.arrRef spec0 1)) (iblk0_0_rows V c t) (iblk0_2_rows V c t)) y (((cfg0.win 3).blk t).view.emb y) ?_ ?_
  · show win0_3.index t (0 : Fin 2) * 4000 + 1 * (y 0).val = _
    rw [e0]; omega
  · show win0_3.index t (1 : Fin 2) * 128 + 1 * (y 1).val = _
    rw [e1]; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v22).slice (win0_3.rect t)).set ↔ _
  rw [View.set_slice_whole, Rect.mem_set_unit]
  exact Iff.rfl

/-- Every row is in the block of the point numbered by the row's quotient by 4000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := Gen.N_0
  let t : Fin cfg0.N := ⟨(i 0).val / 4000, by rw [hN]; omega⟩
  obtain ⟨-, -, -, -, -, -, e0, e1⟩ := idx0 t
  have ht : t.val = (i 0).val / 4000 := rfl
  refine ⟨t, Gen.flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The first region's result array ends holding the product of its first array with its matrix, the rows scaled by its column. -/
theorem final0 (c : Dev nD) : (Gen.dat0 (F := Ideal) V c).arrAt 3 cfg0.N
    = Cert.Stages.scaledDot (V c (Pipeline.arrRef spec0 0)) (V c (Pipeline.arrRef spec0 1)) (V c (Pipeline.arrRef spec0 2)) :=
  (Gen.dat0 (F := Ideal) V c).arrAt_eq_of_cover 3 _ (fun t _ => flushed0 V c t) cover0

/-! ## The second region: rows scaled, a bias row added, negative entries cut, then as the first region -/

/-- The body's arithmetic on a block of rows is the block of rows of the whole-array function. -/
theorem pay1_rows {off : Nat} {ab : FVec Ideal S4000x128 .f32} {db : FVec Ideal S4000x1 .f32}
    {A : FVec Ideal Cert.Stages.sNH .f32} {D : FVec Ideal Cert.Stages.sNc .f32}
    (br : FVec Ideal S1x128 .f32) (w : FVec Ideal S128x128 .bf16)
    (ha : RowBlk off ab A) (hd : RowBlk off db D) :
    RowBlk off (Gen.k1_pay1 (F := Ideal) ab db br w db)
      (Cert.Stages.scaledDot (Cert.Stages.scaleBiasRelu A D br) w D) := by
  unfold Gen.k1_pay1 Cert.Stages.scaledDot Cert.Stages.scaleBiasRelu
  simp only [shapeCast_self]
  have hz0 : RowBlk (Mb := 4000) (M := 100000) (K := 128) off
      (broadcast S4000x128 (Scalar.ofBits (F := Ideal) .f32 0x00000000#32)) Cert.Stages.zeroNH :=
    RowBlk.const (Ideal.ofBits .f32 0x00000000#32) (fun i => rfl) (fun i => rfl)
  exact RowBlk.mul
    (RowBlk.matmulZero plainBlk plainNH
      ((RowBlk.max (RowBlk.add (RowBlk.mul ha (RowBlk.col hd _ _)) (RowBlk.bias br _ _)) hz0).narrow _) w)
    (RowBlk.col hd _ _)

/-- The printed index maps over the grid: every row-blocked window is at row block `t`, column block 0; the bias row's
    and the matrix's windows stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first window's block at point `t` is rows 4000 t … of its array. -/
theorem iblk1_0_rows (c : Dev nD) (t : Fin cfg1.N) :
    RowBlk (t.val * 4000) (Gen.iblk1 (F := Ideal) V c 0 t : FVec Ideal S4000x128 .f32)
      (V c (Pipeline.arrRef spec1 0) : FVec Ideal Cert.Stages.sNH .f32) := by
  obtain ⟨e0, e1, -⟩ := idx1 t
  refine RowBlk.of_read (fun y => ((cfg1.win 0).blk t).view.emb y) (fun y => ?_) (fun y => ?_) (fun y => rfl)
  · show win1_0.index t (0 : Fin 2) * 4000 + 1 * (y 0).val = _
    rw [e0]; omega
  · show win1_0.index t (1 : Fin 2) * 128 + 1 * (y 1).val = _
    rw [e1]; omega

/-- The bias row's window's block at every point is the whole row. -/
theorem iblk1_1_whole (c : Dev nD) (t : Fin cfg1.N) :
    (Gen.iblk1 (F := Ideal) V c 1 t : FVec Ideal S1x128 .f32) = (V c (Pipeline.arrRef spec1 1) : FVec Ideal S1x128 .f32) := by
  obtain ⟨-, -, e0, e1, -⟩ := idx1 t
  refine RowBlk.eq_whole (RowBlk.of_read (fun y => ((cfg1.win 1).blk t).view.emb y) (fun y => ?_) (fun y => ?_) (fun y => rfl))
  · show win1_1.index t (0 : Fin 2) * 1 + 1 * (y 0).val = _
    rw [e0]; omega
  · show win1_1.index t (1 : Fin 2) * 128 + 1 * (y 1).val = _
    rw [e1]; omega

/-- The column window's block at point `t` is rows 4000 t … of the column. -/
theorem iblk1_2_rows (c : Dev nD) (t : Fin cfg1.N) :
    RowBlk (t.val * 4000) (Gen.iblk1 (F := Ideal) V c 2 t : FVec Ideal S4000x1 .f32)
      (V c (Pipeline.arrRef spec1 2) : FVec Ideal Cert.Stages.sNc .f32) := by
  obtain ⟨-, -, -, -, e0, e1, -⟩ := idx1 t
  refine RowBlk.of_read (fun y => ((cfg1.win 2).blk t).view.emb y) (fun y => ?_) (fun y => ?_) (fun y => rfl)
  · show win1_2.index t (0 : Fin 2) * 4000 + 1 * (y 0).val = _
    rw [e0]; omega
  · show win1_2.index t (1 : Fin 2) * 1 + 1 * (y 1).val = _
    rw [e1]; omega

/-- The matrix window's block at every point is the whole matrix. -/
theorem iblk1_3_whole (c : Dev nD) (t : Fin cfg1.N) :
    (Gen.iblk1 (F := Ideal) V c 3 t : FVec Ideal S128x128 .bf16) = (V c (Pipeline.arrRef spec1 3) : FVec Ideal S128x128 .bf16) := by
  obtain ⟨-, -, -, -, -, -, e0, e1, -⟩ := idx1 t
  refine RowBlk.eq_whole (RowBlk.of_read (fun y => ((cfg1.win 3).blk t).view.emb y) (fun y => ?_) (fun y => ?_) (fun y => rfl))
  · show win1_3.index t (0 : Fin 2) * 128 + 1 * (y 0).val = _
    rw [e0]; omega
  · show win1_3.index t (1 : Fin 2) * 128 + 1 * (y 1).val = _
    rw [e1]; omega

/-- What point `t` writes back is block `t` of the whole-array function of the arrays the region finds. -/
theorem flushed1 (c : Dev nD) (t : Fin cfg1.N) :
    (Gen.dat1 (F := Ideal) V c).flushed 4 t = ((cfg1.win 4).blk t).view.read (Elt Ideal)
      (Cert.Stages.scaledDot (Cert.Stages.scaleBiasRelu (V c (Pipeline.arrRef spec1 0)) (V c (Pipeline.arrRef spec1 2)) (V c (Pipeline.arrRef spec1 1)))
        (V c (Pipeline.arrRef spec1 3)) (V c (Pipeline.arrRef spec1 2))) := by
  show (cfg1.win 4).cut (grid1.coords t) ((Gen.dat1 (F := Ideal) V c).after 4 t) = _
  rw [Gen.after1_4]
  unfold Gen.out1_4
  rw [View.canon_unit_zero hz]
  simp only [View.ld_unit_zero (S := S4000x128) hz, View.ld_unit_zero (S := S4000x1) hz, View.ld_unit_zero (S := S128x128) hz,
    View.ld_unit_zero (S := S1x128) hz]
  rw [iblk1_1_whole V c t, iblk1_3_whole V c t]
  obtain ⟨-, -, -, -, -, -, -, -, e0, e1⟩ := idx1 t
  funext y
  refine RowBlk.read (pay1_rows (V c (Pipeline.arrRef spec1 1)) (V c (Pipeline.arrRef spec1 3)) (iblk1_0_rows V c t) (iblk1_2_rows V c t))
    y (((cfg1.win 4).blk t).view.emb y) ?_ ?_
  · show win1_4.index t (0 : Fin 2) * 4000 + 1 * (y 0).val = _
    rw [e0]; omega
  · show win1_4.index t (1 : Fin 2) * 128 + 1 * (y 1).val = _
    rw [e1]; omega

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v33).slice (win1_4.rect t)).set ↔ _
  rw [View.set_slice_whole, Rect.mem_set_unit]
  exact Iff.rfl

/-- Every row is in the block of the point numbered by the row's quotient by 4000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := Gen.N_1
  let t : Fin cfg1.N := ⟨(i 0).val / 4000, by rw [hN]; omega⟩
  obtain ⟨-, -, -, -, -, -, -, -, e0, e1⟩ := idx1 t
  have ht : t.val = (i 0).val / 4000 := rfl
  refine ⟨t, Gen.flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The second region's result array ends holding: the first array's rows scaled by the column, the bias row added,
    negative entries cut to 0; that times the matrix; the rows scaled by the column again. -/
theorem final1 (c : Dev nD) : (Gen.dat1 (F := Ideal) V c).arrAt 4 cfg1.N
    = Cert.Stages.scaledDot (Cert.Stages.scaleBiasRelu (V c (Pipeline.arrRef spec1 0)) (V c (Pipeline.arrRef spec1 2)) (V c (Pipeline.arrRef spec1 1)))
        (V c (Pipeline.arrRef spec1 3)) (V c (Pipeline.arrRef spec1 2)) :=
  (Gen.dat1 (F := Ideal) V c).arrAt_eq_of_cover 4 _ (fun t _ => flushed1 V c t) cover1

/-! ## The third region: rows scaled by a column -/

/-- The body's arithmetic on a block of rows is the block of rows of the whole-array function. -/
theorem pay2_rows {off : Nat} {xb : FVec Ideal S4000x128 .f32} {db : FVec Ideal S4000x1 .f32}
    {X : FVec Ideal Cert.Stages.sNH .f32} {D : FVec Ideal Cert.Stages.sNc .f32}
    (hx : RowBlk off xb X) (hd : RowBlk off db D) :
    RowBlk off (Gen.k2_pay1 (F := Ideal) xb db) (Cert.Stages.scaleRows X D) := by
  unfold Gen.k2_pay1 Cert.Stages.scaleRows
  exact RowBlk.mul (hx.castSelf _) (RowBlk.col (hd.castSelf _) _ _)

/-- The printed index maps over the grid: every row-blocked window is at row block `t`, column block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The first window's block at point `t` is rows 4000 t … of its array. -/
theorem iblk2_0_rows (c : Dev nD) (t : Fin cfg2.N) :
    RowBlk (t.val * 4000) (Gen.iblk2 (F := Ideal) V c 0 t : FVec Ideal S4000x128 .f32)
      (V c (Pipeline.arrRef spec2 0) : FVec Ideal Cert.Stages.sNH .f32) := by
  obtain ⟨e0, e1, -⟩ := idx2 t
  refine RowBlk.of_read (fun y => ((cfg2.win 0).blk t).view.emb y) (fun y => ?_) (fun y => ?_) (fun y => rfl)
  · show win2_0.index t (0 : Fin 2) * 4000 + 1 * (y 0).val = _
    rw [e0]; omega
  · show win2_0.index t (1 : Fin 2) * 128 + 1 * (y 1).val = _
    rw [e1]; omega

/-- The column window's block at point `t` is rows 4000 t … of the column. -/
theorem iblk2_1_rows (c : Dev nD) (t : Fin cfg2.N) :
    RowBlk (t.val * 4000) (Gen.iblk2 (F := Ideal) V c 1 t : FVec Ideal S4000x1 .f32)
      (V c (Pipeline.arrRef spec2 1) : FVec Ideal Cert.Stages.sNc .f32) := by
  obtain ⟨-, -, e0, e1, -⟩ := idx2 t
  refine RowBlk.of_read (fun y => ((cfg2.win 1).blk t).view.emb y) (fun y => ?_) (fun y => ?_) (fun y => rfl)
  · show win2_1.index t (0 : Fin 2) * 4000 + 1 * (y 0).val = _
    rw [e0]; omega
  · show win2_1.index t (1 : Fin 2) * 1 + 1 * (y 1).val = _
    rw [e1]; omega

/-- What point `t` writes back is block `t` of the whole-array function of the arrays the region finds. -/
theorem flushed2 (c : Dev nD) (t : Fin cfg2.N) :
    (Gen.dat2 (F := Ideal) V c).flushed 2 t = ((cfg2.win 2).blk t).view.read (Elt Ideal)
      (Cert.Stages.scaleRows (V c (Pipeline.arrRef spec2 0)) (V c (Pipeline.arrRef spec2 1))) := by
  show (cfg2.win 2).cut (grid2.coords t) ((Gen.dat2 (F := Ideal) V c).after 2 t) = _
  rw [Gen.after2_2]
  unfold Gen.out2_2
  rw [View.canon_unit_zero hz]
  simp only [View.ld_unit_zero (S := S4000x128) hz, View.ld_unit_zero (S := S4000x1) hz]
  obtain ⟨-, -, -, -, e0, e1⟩ := idx2 t
  funext y
  refine RowBlk.read (pay2_rows (iblk2_0_rows V c t) (iblk2_1_rows V c t)) y (((cfg2.win 2).blk t).view.emb y) ?_ ?_
  · show win2_2.index t (0 : Fin 2) * 4000 + 1 * (y 0).val = _
    rw [e0]; omega
  · show win2_2.index t (1 : Fin 2) * 128 + 1 * (y 1).val = _
    rw [e1]; omega

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v44).slice (win2_2.rect t)).set ↔ _
  rw [View.set_slice_whole, Rect.mem_set_unit]
  exact Iff.rfl

/-- Every row is in the block of the point numbered by the row's quotient by 4000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := Gen.N_2
  let t : Fin cfg2.N := ⟨(i 0).val / 4000, by rw [hN]; omega⟩
  obtain ⟨-, -, -, -, e0, e1⟩ := idx2 t
  have ht : t.val = (i 0).val / 4000 := rfl
  refine ⟨t, Gen.flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- The third region's result array ends holding the rows of its first array scaled by its column. -/
theorem final2 (c : Dev nD) : (Gen.dat2 (F := Ideal) V c).arrAt 2 cfg2.N
    = Cert.Stages.scaleRows (V c (Pipeline.arrRef spec2 0)) (V c (Pipeline.arrRef spec2 1)) :=
  (Gen.dat2 (F := Ideal) V c).arrAt_eq_of_cover 2 _ (fun t _ => flushed2 V c t) cover2

/-! ## The fourth region: one point, a product with a 128-by-8 matrix plus a bias row -/

/-- The program's record of the last product and the host's are the plain ones. -/
theorem plainLastBlk : Plain dot_S64x128_S128x8_S64x8_1_0_0_1_n_n :=
  Plain.of_fields dot_S64x128_S128x8_S64x8_1_0_0_1_n_n rfl rfl rfl rfl rfl rfl
theorem plainGC : Plain Cert.Stages.dotGC :=
  Plain.of_fields (DotDims.plain 64 128 8) rfl rfl rfl rfl rfl rfl

/-- The body's arithmetic on the whole arrays is the whole-array function. -/
theorem pay3_eq (P : FVec Ideal S64x128 .f32) (lw : FVec Ideal S128x8 .bf16) (br : FVec Ideal S1x8 .f32) :
    Gen.k3_pay1 (F := Ideal) P lw br = Cert.Stages.lastLayer P lw br := by
  refine RowBlk.eq_whole ?_
  unfold Gen.k3_pay1 Cert.Stages.lastLayer Cert.Stages.biasG
  simp only [shapeCast_self]
  exact RowBlk.add (RowBlk.matmulZero plainLastBlk plainGC ((RowBlk.whole P).narrow _) lw) (RowBlk.bias br _ _)

/-- The printed index maps at the grid's points: every window stays at block (0, 0). -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Each window's block is its whole array. -/
theorem iblk3_0_whole (c : Dev nD) (t : Fin cfg3.N) :
    (Gen.iblk3 (F := Ideal) V c 0 t : FVec Ideal S64x128 .f32) = (V c (Pipeline.arrRef spec3 0) : FVec Ideal S64x128 .f32) := by
  obtain ⟨e0, e1, -⟩ := idx3 t
  refine RowBlk.eq_whole (RowBlk.of_read (fun y => ((cfg3.win 0).blk t).view.emb y) (fun y => ?_) (fun y => ?_) (fun y => rfl))
  · show win3_0.index t (0 : Fin 2) * 64 + 1 * (y 0).val = _
    rw [e0]; omega
  · show win3_0.index t (1 : Fin 2) * 128 + 1 * (y 1).val = _
    rw [e1]; omega
theorem iblk3_1_whole (c : Dev nD) (t : Fin cfg3.N) :
    (Gen.iblk3 (F := Ideal) V c 1 t : FVec Ideal S128x8 .bf16) = (V c (Pipeline.arrRef spec3 1) : FVec Ideal S128x8 .bf16) := by
  obtain ⟨-, -, e0, e1, -⟩ := idx3 t
  refine RowBlk.eq_whole (RowBlk.of_read (fun y => ((cfg3.win 1).blk t).view.emb y) (fun y => ?_) (fun y => ?_) (fun y => rfl))
  · show win3_1.index t (0 : Fin 2) * 128 + 1 * (y 0).val = _
    rw [e0]; omega
  · show win3_1.index t (1 : Fin 2) * 8 + 1 * (y 1).val = _
    rw [e1]; omega
theorem iblk3_2_whole (c : Dev nD) (t : Fin cfg3.N) :
    (Gen.iblk3 (F := Ideal) V c 2 t : FVec Ideal S1x8 .f32) = (V c (Pipeline.arrRef spec3 2) : FVec Ideal S1x8 .f32) := by
  obtain ⟨-, -, -, -, e0, e1, -⟩ := idx3 t
  refine RowBlk.eq_whole (RowBlk.of_read (fun y => ((cfg3.win 2).blk t).view.emb y) (fun y => ?_) (fun y => ?_) (fun y => rfl))
  · show win3_2.index t (0 : Fin 2) * 1 + 1 * (y 0).val = _
    rw [e0]; omega
  · show win3_2.index t (1 : Fin 2) * 8 + 1 * (y 1).val = _
    rw [e1]; omega

/-- What the point writes back is the whole-array function of the arrays the region finds, read through the one block. -/
theorem flushed3 (c : Dev nD) (t : Fin cfg3.N) :
    (Gen.dat3 (F := Ideal) V c).flushed 3 t = ((cfg3.win 3).blk t).view.read (Elt Ideal)
      (Cert.Stages.lastLayer (V c (Pipeline.arrRef spec3 0)) (V c (Pipeline.arrRef spec3 1)) (V c (Pipeline.arrRef spec3 2))) := by
  show (cfg3.win 3).cut (grid3.coords t) ((Gen.dat3 (F := Ideal) V c).after 3 t) = _
  rw [Gen.after3_3]
  unfold Gen.out3_3
  rw [View.canon_unit_zero hz]
  simp only [View.ld_unit_zero (S := S64x128) hz, View.ld_unit_zero (S := S128x8) hz, View.ld_unit_zero (S := S1x8) hz]
  rw [iblk3_0_whole V c t, iblk3_1_whole V c t, iblk3_2_whole V c t, pay3_eq]
  obtain ⟨-, -, -, -, -, -, e0, e1⟩ := idx3 t
  funext y
  refine RowBlk.read (RowBlk.whole _) y (((cfg3.win 3).blk t).view.emb y) ?_ ?_
  · show win3_3.index t (0 : Fin 2) * 64 + 1 * (y 0).val = _
    rw [e0]; omega
  · show win3_3.index t (1 : Fin 2) * 8 + 1 * (y 1).val = _
    rw [e1]; omega

/-- An index of the array is in point `t`'s block iff each coordinate is in the block's range on its axis. -/
theorem mem_blk3 (t : Fin cfg3.N) (i : S64x8.Idx) :
    i ∈ ((cfg3.win 3).blk t).view.set ↔ ∀ a : Fin 2, win3_3.index t a * S64x8.size a ≤ (i a).val ∧ (i a).val < win3_3.index t a * S64x8.size a + S64x8.size a := by
  show i ∈ ((View.whole main_v65).slice (win3_3.rect t)).set ↔ _
  rw [View.set_slice_whole, Rect.mem_set_unit]
  exact Iff.rfl

/-- The one block is the whole array. -/
theorem cover3 (i : S64x8.Idx) : ∃ t : Fin cfg3.N, (cfg3.win 3).flush t = true ∧ i ∈ ((cfg3.win 3).blk t).view.set := by
  have hi0 : (i 0).val < 64 := (i 0).isLt
  have hi1 : (i 1).val < 8 := (i 1).isLt
  obtain ⟨-, -, -, -, -, -, e0, e1⟩ := idx3 Gen.t3_0
  refine ⟨Gen.t3_0, Gen.flush3_3 Gen.t3_0, ?_⟩
  rw [mem_blk3]
  intro a
  match a with
  | ⟨0, _⟩ => show win3_3.index Gen.t3_0 (0 : Fin 2) * 64 ≤ (i 0).val ∧ (i 0).val < win3_3.index Gen.t3_0 (0 : Fin 2) * 64 + 64; omega
  | ⟨1, _⟩ => show win3_3.index Gen.t3_0 (1 : Fin 2) * 8 ≤ (i 1).val ∧ (i 1).val < win3_3.index Gen.t3_0 (1 : Fin 2) * 8 + 8; omega

/-- The fourth region's result array ends holding the product of its first array with its matrix plus its bias row. -/
theorem final3 (c : Dev nD) : (Gen.dat3 (F := Ideal) V c).arrAt 3 cfg3.N
    = Cert.Stages.lastLayer (V c (Pipeline.arrRef spec3 0)) (V c (Pipeline.arrRef spec3 1)) (V c (Pipeline.arrRef spec3 2)) :=
  (Gen.dat3 (F := Ideal) V c).arrAt_eq_of_cover 3 _ (fun t _ => flushed3 V c t) cover3

end Cert.KernelIdeal.Blocks

end
-- ==== Proof.KernelValue.lean ====
import proofs.«171166_j2619930050604_2_alg».proof.Proof.Gen.KernelIdeal.Frame
import proofs.«171166_j2619930050604_2_alg».proof.Proof.Stages
import proofs.«171166_j2619930050604_2_alg».proof.Proof.KernelBlocks

set_option maxRecDepth 16384

noncomputable section

/-
  What the idealized kernel program leaves in its result buffer: `Cert.Stages.outKer` of the argument arrays.

  The contents of the unscoped buffers at the twelve segment boundaries are a fold from the launch memory. A stretch of
  host operations, read at a buffer it writes, is the corresponding whole-array operations of the buffers it reads; at a
  buffer it does not write, nothing. A kernel region leaves in its output array the whole-array function its blocks are
  rows of (KernelBlocks.lean), and every other buffer alone. Walking the fold from the launch to the return composes
  these into `outKer`. The first stretch is cut after the two index vectors, so that the later operations see them as
  buffers; the two stretches that are a called function's lines are first rewritten as plain operations on their
  buffers (the same lists).
-/
namespace Cert.KernelIdeal.KerValue

open Cert.KernelIdeal Cert.KernelIdeal.Gen Cert.Stages
open Idealize.ShloMosaic Idealize.ShloMosaic.TcCoe Idealize.SL.Sem Idealize.ShloMosaic.StableHlo
open Idealize.ShloMosaic.Pipeline (Dat Cfg Window)
open Cert.KernelIdeal.Blocks

/-! ## The stretches, rearranged -/

section Lists
variable {F : FTy → Type} [FloatOps F]

/-- The first seven host operations: the two index vectors. -/
abbrev A7 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The rest of the first stretch: the degrees and their inverse square roots. -/
abbrev B14 : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32) ]
theorem hostOps0_split : (hostOps0 : List (HloOp τ sig (Elt F))) = A7 ++ B14 := rfl

/-- The select of the normalisation, as plain operations. -/
abbrev hostOps0_1p : List (HloOp τ sig (Elt F)) :=
  [ StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
theorem hostOps0_1_eq : (hostOps0_1 : List (HloOp τ sig (Elt F))) = hostOps0_1p := rfl
/-- The select of the pooled bias, as plain operations. -/
abbrev hostOps3_1p : List (HloOp τ sig (Elt F)) :=
  [ StableHlo.unary main_cst_14 main_call1_v0 (id : (⟨S_, .f32⟩ : BufTy).Contents (Elt F) → (⟨S_, .f32⟩ : BufTy).Contents (Elt F)),
    StableHlo.unary main_v59 main_call1_v1 (broadcastInDim S64x128 ![0, 1] bcast_S64x1_S64x128_0_1 : (⟨S64x1, .i1⟩ : BufTy).Contents (Elt F) → (⟨S64x128, .i1⟩ : BufTy).Contents (Elt F)),
    StableHlo.unary main_v60 main_call1_v2 (broadcastInDim S64x128 ![0, 1] bcast_S1x128_S64x128_0_1 : (⟨S1x128, .f32⟩ : BufTy).Contents (Elt F) → (⟨S64x128, .f32⟩ : BufTy).Contents (Elt F)),
    StableHlo.unary main_call1_v0 main_call1_v3 (broadcastInDim S64x128 ![] bcast_S_S64x128 : (⟨S_, .f32⟩ : BufTy).Contents (Elt F) → (⟨S64x128, .f32⟩ : BufTy).Contents (Elt F)),
    StableHlo.ternary main_call1_v1 main_call1_v2 main_call1_v3 main_v61 (select : (⟨S64x128, .i1⟩ : BufTy).Contents (Elt F) → (⟨S64x128, .f32⟩ : BufTy).Contents (Elt F) → (⟨S64x128, .f32⟩ : BufTy).Contents (Elt F) → (⟨S64x128, .f32⟩ : BufTy).Contents (Elt F)) ]
theorem hostOps3_1_eq : (hostOps3_1 : List (HloOp τ sig (Elt F))) = hostOps3_1p := rfl

end Lists

/-! ## The first stretch from any contents -/
section FromAny
variable (X : Valuation τ sig (Elt Ideal))

theorem a7_v3 : StableHlo.after A7 X (Proc.devRef .tc main_v3) = src (X (Proc.devRef .tc main_arg1)) := by
  after_results
  rfl
theorem a7_v6 : StableHlo.after A7 X (Proc.devRef .tc main_v6) = dst (X (Proc.devRef .tc main_arg1)) := by
  after_results
  rfl
theorem a7_arg0 : StableHlo.after A7 X (Proc.devRef .tc main_arg0) = X (Proc.devRef .tc main_arg0) := by
  after_results
theorem a7_arg2 : StableHlo.after A7 X (Proc.devRef .tc main_arg2) = X (Proc.devRef .tc main_arg2) := by
  after_results
theorem a7_arg3 : StableHlo.after A7 X (Proc.devRef .tc main_arg3) = X (Proc.devRef .tc main_arg3) := by
  after_results
theorem a7_arg4 : StableHlo.after A7 X (Proc.devRef .tc main_arg4) = X (Proc.devRef .tc main_arg4) := by
  after_results
theorem a7_arg5 : StableHlo.after A7 X (Proc.devRef .tc main_arg5) = X (Proc.devRef .tc main_arg5) := by
  after_results
theorem a7_arg6 : StableHlo.after A7 X (Proc.devRef .tc main_arg6) = X (Proc.devRef .tc main_arg6) := by
  after_results
theorem a7_arg7 : StableHlo.after A7 X (Proc.devRef .tc main_arg7) = X (Proc.devRef .tc main_arg7) := by
  after_results
theorem a7_arg8 : StableHlo.after A7 X (Proc.devRef .tc main_arg8) = X (Proc.devRef .tc main_arg8) := by
  after_results

set_option maxHeartbeats 4000000 in
theorem pre_v17 : StableHlo.after hostOps0_2 (StableHlo.after hostOps0_1p (StableHlo.after B14 X)) (Proc.devRef .tc main_v17) = dinvCol (X (Proc.devRef .tc main_v6)) := by
  dsimp only [hostOps0_2, hostOps0_1p, B14]
  after_results_simp
  unfold dinvCol dinv deg zeroN oneN oneE colE
  rfl
theorem pre_v21 : (StableHlo.after hostOps0_2 (StableHlo.after hostOps0_1p (StableHlo.after B14 X)) (Proc.devRef .tc main_v21) : sNH.Idx → EReal) = (X (Proc.devRef .tc main_arg0)) := by
  dsimp only [hostOps0_2, hostOps0_1p, B14]
  after_results_simp
  rfl
theorem pre_v18 : (StableHlo.after hostOps0_2 (StableHlo.after hostOps0_1p (StableHlo.after B14 X)) (Proc.devRef .tc main_v18) : sHH.Idx → EReal) = (X (Proc.devRef .tc main_arg3)) := by
  dsimp only [hostOps0_2, hostOps0_1p, B14]
  after_results_simp
  rfl
theorem pre_v19 : (StableHlo.after hostOps0_2 (StableHlo.after hostOps0_1p (StableHlo.after B14 X)) (Proc.devRef .tc main_v19) : sHH.Idx → EReal) = (X (Proc.devRef .tc main_arg5)) := by
  dsimp only [hostOps0_2, hostOps0_1p, B14]
  after_results_simp
  rfl
theorem pre_v20 : StableHlo.after hostOps0_2 (StableHlo.after hostOps0_1p (StableHlo.after B14 X)) (Proc.devRef .tc main_v20) = shapeCast (s := sH) s1H (X (Proc.devRef .tc main_arg4)) (by decide) := by
  dsimp only [hostOps0_2, hostOps0_1p, B14]
  after_results_simp
  rfl
theorem pre_v3 : StableHlo.after hostOps0_2 (StableHlo.after hostOps0_1p (StableHlo.after B14 X)) (Proc.devRef .tc main_v3) = X (Proc.devRef .tc main_v3) := by
  dsimp only [hostOps0_2, hostOps0_1p, B14]
  after_results_simp
theorem pre_v6 : StableHlo.after hostOps0_2 (StableHlo.after hostOps0_1p (StableHlo.after B14 X)) (Proc.devRef .tc main_v6) = X (Proc.devRef .tc main_v6) := by
  dsimp only [hostOps0_2, hostOps0_1p, B14]
  after_results_simp
theorem pre_arg2 : StableHlo.after hostOps0_2 (StableHlo.after hostOps0_1p (StableHlo.after B14 X)) (Proc.devRef .tc main_arg2) = X (Proc.devRef .tc main_arg2) := by
  dsimp only [hostOps0_2, hostOps0_1p, B14]
  after_results_simp
theorem pre_arg6 : StableHlo.after hostOps0_2 (StableHlo.after hostOps0_1p (StableHlo.after B14 X)) (Proc.devRef .tc main_arg6) = X (Proc.devRef .tc main_arg6) := by
  dsimp only [hostOps0_2, hostOps0_1p, B14]
  after_results_simp
theorem pre_arg7 : StableHlo.after hostOps0_2 (StableHlo.after hostOps0_1p (StableHlo.after B14 X)) (Proc.devRef .tc main_arg7) = X (Proc.devRef .tc main_arg7) := by
  dsimp only [hostOps0_2, hostOps0_1p, B14]
  after_results_simp
theorem pre_arg8 : StableHlo.after hostOps0_2 (StableHlo.after hostOps0_1p (StableHlo.after B14 X)) (Proc.devRef .tc main_arg8) = X (Proc.devRef .tc main_arg8) := by
  dsimp only [hostOps0_2, hostOps0_1p, B14]
  after_results_simp
end FromAny

variable (m : (ℓ : Loc nD τ sig) → Buf (Elt Ideal) ℓ) (ρ : Dev nD → PrngReg) (c : Dev nD)

/-! ## At the first region's entry -/

theorem W3_eq (b : DevRef τ sig) : W3 m ρ c b
    = StableHlo.after hostOps0_2 (StableHlo.after hostOps0_1p (StableHlo.after B14 (StableHlo.after A7 (W0 m ρ c)))) b := by
  show StableHlo.after hostOps0_2 (StableHlo.after hostOps0_1 (StableHlo.after hostOps0 (W0 m ρ c))) b = _
  rw [hostOps0_1_eq, hostOps0_split, StableHlo.after_append]

theorem l3_v3 : W3 m ρ c (Proc.devRef .tc main_v3) = src (m ((c : Thread nD τ).loc main_arg1)) :=
  (W3_eq m ρ c _).trans ((pre_v3 _).trans (a7_v3 _))
theorem l3_v6 : W3 m ρ c (Proc.devRef .tc main_v6) = dst (m ((c : Thread nD τ).loc main_arg1)) :=
  (W3_eq m ρ c _).trans ((pre_v6 _).trans (a7_v6 _))
theorem l3_v17 : W3 m ρ c (Proc.devRef .tc main_v17) = dinvCol (dst (m ((c : Thread nD τ).loc main_arg1))) :=
  (W3_eq m ρ c _).trans ((pre_v17 _).trans (congrArg dinvCol (a7_v6 _)))
theorem l3_v21 : (W3 m ρ c (Proc.devRef .tc main_v21) : sNH.Idx → EReal) = (m ((c : Thread nD τ).loc main_arg0)) :=
  (W3_eq m ρ c _).trans ((pre_v21 _).trans (a7_arg0 _))
theorem l3_v18 : (W3 m ρ c (Proc.devRef .tc main_v18) : sHH.Idx → EReal) = (m ((c : Thread nD τ).loc main_arg3)) :=
  (W3_eq m ρ c _).trans ((pre_v18 _).trans (a7_arg3 _))
theorem l3_v19 : (W3 m ρ c (Proc.devRef .tc main_v19) : sHH.Idx → EReal) = (m ((c : Thread nD τ).loc main_arg5)) :=
  (W3_eq m ρ c _).trans ((pre_v19 _).trans (a7_arg5 _))
theorem l3_v20 : W3 m ρ c (Proc.devRef .tc main_v20) = shapeCast (s := sH) s1H (m ((c : Thread nD τ).loc main_arg4)) (by decide) :=
  (W3_eq m ρ c _).trans ((pre_v20 _).trans (congrArg (fun z => shapeCast (s := sH) s1H z (by decide)) (a7_arg4 _)))
theorem l3_arg2 : W3 m ρ c (Proc.devRef .tc main_arg2) = (m ((c : Thread nD τ).loc main_arg2)) :=
  (W3_eq m ρ c _).trans ((pre_arg2 _).trans (a7_arg2 _))
theorem l3_arg6 : W3 m ρ c (Proc.devRef .tc main_arg6) = (m ((c : Thread nD τ).loc main_arg6)) :=
  (W3_eq m ρ c _).trans ((pre_arg6 _).trans (a7_arg6 _))
theorem l3_arg7 : W3 m ρ c (Proc.devRef .tc main_arg7) = (m ((c : Thread nD τ).loc main_arg7)) :=
  (W3_eq m ρ c _).trans ((pre_arg7 _).trans (a7_arg7 _))
theorem l3_arg8 : W3 m ρ c (Proc.devRef .tc main_arg8) = (m ((c : Thread nD τ).loc main_arg8)) :=
  (W3_eq m ρ c _).trans ((pre_arg8 _).trans (a7_arg8 _))

/-! ## The first region (rows of x·W1 scaled) and the first aggregation -/

theorem l4_v22 : W4 m ρ c (Proc.devRef .tc main_v22) = scaledDot (m ((c : Thread nD τ).loc main_arg0)) (m ((c : Thread nD τ).loc main_arg3)) (dinvCol (dst (m ((c : Thread nD τ).loc main_arg1)))) := by
  rw [show W4 m ρ c (Proc.devRef .tc main_v22) = (dat0 (V3 m ρ) c).arrAt 3 cfg0.N from W4_arr m ρ c 3, final0 (V3 m ρ) c]
  show scaledDot (W3 m ρ c (Proc.devRef .tc main_v21)) (W3 m ρ c (Proc.devRef .tc main_v18)) (W3 m ρ c (Proc.devRef .tc main_v17)) = _
  rw [l3_v17]
  exact congrArg₂ (fun a b => scaledDot a b _) (l3_v21 m ρ c) (l3_v18 m ρ c)
/-- The column of inverse square roots is an input of the region: its array is left as entered. -/
theorem l4_v17 : W4 m ρ c (Proc.devRef .tc main_v17) = dinvCol (dst (m ((c : Thread nD τ).loc main_arg1))) := by
  rw [show W4 m ρ c (Proc.devRef .tc main_v17) = (dat0 (V3 m ρ) c).arrAt 2 cfg0.N from W4_arr m ρ c 2,
    (dat0 (V3 m ρ) c).arrAt_in 2 rfl, A_eq0]
  exact l3_v17 m ρ c
theorem l4_v20 : W4 m ρ c (Proc.devRef .tc main_v20) = shapeCast (s := sH) s1H (m ((c : Thread nD τ).loc main_arg4)) (by decide) :=
  (W4_of_ne m ρ c main_v20 (by decide)).trans (l3_v20 m ρ c)
theorem l4_v19 : (W4 m ρ c (Proc.devRef .tc main_v19) : sHH.Idx → EReal) = (m ((c : Thread nD τ).loc main_arg5)) :=
  (W4_of_ne m ρ c main_v19 (by decide)).trans (l3_v19 m ρ c)
theorem l4_v3 : W4 m ρ c (Proc.devRef .tc main_v3) = src (m ((c : Thread nD τ).loc main_arg1)) :=
  (W4_of_ne m ρ c main_v3 (by decide)).trans (l3_v3 m ρ c)
theorem l4_v6 : W4 m ρ c (Proc.devRef .tc main_v6) = dst (m ((c : Thread nD τ).loc main_arg1)) :=
  (W4_of_ne m ρ c main_v6 (by decide)).trans (l3_v6 m ρ c)
theorem l4_arg2 : W4 m ρ c (Proc.devRef .tc main_arg2) = (m ((c : Thread nD τ).loc main_arg2)) :=
  (W4_of_ne m ρ c main_arg2 (by decide)).trans (l3_arg2 m ρ c)
theorem l4_arg6 : W4 m ρ c (Proc.devRef .tc main_arg6) = (m ((c : Thread nD τ).loc main_arg6)) :=
  (W4_of_ne m ρ c main_arg6 (by decide)).trans (l3_arg6 m ρ c)
theorem l4_arg7 : W4 m ρ c (Proc.devRef .tc main_arg7) = (m ((c : Thread nD τ).loc main_arg7)) :=
  (W4_of_ne m ρ c main_arg7 (by decide)).trans (l3_arg7 m ρ c)
theorem l4_arg8 : W4 m ρ c (Proc.devRef .tc main_arg8) = (m ((c : Thread nD τ).loc main_arg8)) :=
  (W4_of_ne m ρ c main_arg8 (by decide)).trans (l3_arg8 m ρ c)

theorem h5_v32 : W5 m ρ c (Proc.devRef .tc main_v32) = aggKer (W4 m ρ c (Proc.devRef .tc main_v22)) (W4 m ρ c (Proc.devRef .tc main_v3)) (W4 m ρ c (Proc.devRef .tc main_v6)) := by
  show StableHlo.after hostOps1 (W4 m ρ c) _ = _
  dsimp only [hostOps1]
  after_results_simp
  unfold aggKer zeroNH colE wrapN
  rfl
theorem l5_v32 : W5 m ρ c (Proc.devRef .tc main_v32) = (aggKer (scaledDot (m ((c : Thread nD τ).loc main_arg0)) (m ((c : Thread nD τ).loc main_arg3)) (dinvCol (dst (m ((c : Thread nD τ).loc main_arg1))))) (src (m ((c : Thread nD τ).loc main_arg1))) (dst (m ((c : Thread nD τ).loc main_arg1)))) := by
  rw [h5_v32, l4_v22, l4_v3, l4_v6]
theorem k5_v17 : W5 m ρ c (Proc.devRef .tc main_v17) = W4 m ρ c (Proc.devRef .tc main_v17) := by
  show StableHlo.after hostOps1 (W4 m ρ c) _ = _
  dsimp only [hostOps1]
  after_results_simp
theorem l5_v17 : W5 m ρ c (Proc.devRef .tc main_v17) = dinvCol (dst (m ((c : Thread nD τ).loc main_arg1))) :=
  (k5_v17 m ρ c).trans (l4_v17 m ρ c)
theorem k5_v20 : W5 m ρ c (Proc.devRef .tc main_v20) = W4 m ρ c (Proc.devRef .tc main_v20) := by
  show StableHlo.after hostOps1 (W4 m ρ c) _ = _
  dsimp only [hostOps1]
  after_results_simp
theorem l5_v20 : W5 m ρ c (Proc.devRef .tc main_v20) = shapeCast (s := sH) s1H (m ((c : Thread nD τ).loc main_arg4)) (by decide) :=
  (k5_v20 m ρ c).trans (l4_v20 m ρ c)
theorem k5_v19 : W5 m ρ c (Proc.devRef .tc main_v19) = W4 m ρ c (Proc.devRef .tc main_v19) := by
  show StableHlo.after hostOps1 (W4 m ρ c) _ = _
  dsimp only [hostOps1]
  after_results_simp
theorem l5_v19 : (W5 m ρ c (Proc.devRef .tc main_v19) : sHH.Idx → EReal) = (m ((c : Thread nD τ).loc main_arg5)) :=
  (k5_v19 m ρ c).trans (l4_v19 m ρ c)
theorem k5_v3 : W5 m ρ c (Proc.devRef .tc main_v3) = W4 m ρ c (Proc.devRef .tc main_v3) := by
  show StableHlo.after hostOps1 (W4 m ρ c) _ = _
  dsimp only [hostOps1]
  after_results_simp
theorem l5_v3 : W5 m ρ c (Proc.devRef .tc main_v3) = src (m ((c : Thread nD τ).loc main_arg1)) :=
  (k5_v3 m ρ c).trans (l4_v3 m ρ c)
theorem k5_v6 : W5 m ρ c (Proc.devRef .tc main_v6) = W4 m ρ c (Proc.devRef .tc main_v6) := by
  show StableHlo.after hostOps1 (W4 m ρ c) _ = _
  dsimp only [hostOps1]
  after_results_simp
theorem l5_v6 : W5 m ρ c (Proc.devRef .tc main_v6) = dst (m ((c : Thread nD τ).loc main_arg1)) :=
  (k5_v6 m ρ c).trans (l4_v6 m ρ c)
theorem k5_arg2 : W5 m ρ c (Proc.devRef .tc main_arg2) = W4 m ρ c (Proc.devRef .tc main_arg2) := by
  show StableHlo.after hostOps1 (W4 m ρ c) _ = _
  dsimp only [hostOps1]
  after_results_simp
theorem l5_arg2 : W5 m ρ c (Proc.devRef .tc main_arg2) = (m ((c : Thread nD τ).loc main_arg2)) :=
  (k5_arg2 m ρ c).trans (l4_arg2 m ρ c)
theorem k5_arg6 : W5 m ρ c (Proc.devRef .tc main_arg6) = W4 m ρ c (Proc.devRef .tc main_arg6) := by
  show StableHlo.after hostOps1 (W4 m ρ c) _ = _
  dsimp only [hostOps1]
  after_results_simp
theorem l5_arg6 : W5 m ρ c (Proc.devRef .tc main_arg6) = (m ((c : Thread nD τ).loc main_arg6)) :=
  (k5_arg6 m ρ c).trans (l4_arg6 m ρ c)
theorem k5_arg7 : W5 m ρ c (Proc.devRef .tc main_arg7) = W4 m ρ c (Proc.devRef .tc main_arg7) := by
  show StableHlo.after hostOps1 (W4 m ρ c) _ = _
  dsimp only [hostOps1]
  after_results_simp
theorem l5_arg7 : W5 m ρ c (Proc.devRef .tc main_arg7) = (m ((c : Thread nD τ).loc main_arg7)) :=
  (k5_arg7 m ρ c).trans (l4_arg7 m ρ c)
theorem k5_arg8 : W5 m ρ c (Proc.devRef .tc main_arg8) = W4 m ρ c (Proc.devRef .tc main_arg8) := by
  show StableHlo.after hostOps1 (W4 m ρ c) _ = _
  dsimp only [hostOps1]
  after_results_simp
theorem l5_arg8 : W5 m ρ c (Proc.devRef .tc main_arg8) = (m ((c : Thread nD τ).loc main_arg8)) :=
  (k5_arg8 m ρ c).trans (l4_arg8 m ρ c)

/-! ## The second region (activations, second product, scaled) and the second aggregation -/

theorem l6_v33 : W6 m ρ c (Proc.devRef .tc main_v33) = (scaledDot (scaleBiasRelu (aggKer (scaledDot (m ((c : Thread nD τ).loc main_arg0)) (m ((c : Thread nD τ).loc main_arg3)) (dinvCol (dst (m ((c : Thread nD τ).loc main_arg1))))) (src (m ((c : Thread nD τ).loc main_arg1))) (dst (m ((c : Thread nD τ).loc main_arg1)))) (dinvCol (dst (m ((c : Thread nD τ).loc main_arg1)))) (shapeCast (s := sH) s1H (m ((c : Thread nD τ).loc main_arg4)) (by decide))) (m ((c : Thread nD τ).loc main_arg5)) (dinvCol (dst (m ((c : Thread nD τ).loc main_arg1))))) := by
  rw [show W6 m ρ c (Proc.devRef .tc main_v33) = (dat1 (V5 m ρ) c).arrAt 4 cfg1.N from W6_arr m ρ c 4, final1 (V5 m ρ) c]
  show scaledDot (scaleBiasRelu (W5 m ρ c (Proc.devRef .tc main_v32)) (W5 m ρ c (Proc.devRef .tc main_v17)) (W5 m ρ c (Proc.devRef .tc main_v20))) (W5 m ρ c (Proc.devRef .tc main_v19)) (W5 m ρ c (Proc.devRef .tc main_v17)) = _
  rw [l5_v32, l5_v17, l5_v20]
  exact congrArg (fun b => scaledDot _ b _) (l5_v19 m ρ c)
/-- The column of inverse square roots is an input of the region: its array is left as entered. -/
theorem l6_v17 : W6 m ρ c (Proc.devRef .tc main_v17) = dinvCol (dst (m ((c : Thread nD τ).loc main_arg1))) := by
  rw [show W6 m ρ c (Proc.devRef .tc main_v17) = (dat1 (V5 m ρ) c).arrAt 2 cfg1.N from W6_arr m ρ c 2,
    (dat1 (V5 m ρ) c).arrAt_in 2 rfl, A_eq1]
  exact l5_v17 m ρ c
theorem l6_v3 : W6 m ρ c (Proc.devRef .tc main_v3) = src (m ((c : Thread nD τ).loc main_arg1)) :=
  (W6_of_ne m ρ c main_v3 (by decide)).trans (l5_v3 m ρ c)
theorem l6_v6 : W6 m ρ c (Proc.devRef .tc main_v6) = dst (m ((c : Thread nD τ).loc main_arg1)) :=
  (W6_of_ne m ρ c main_v6 (by decide)).trans (l5_v6 m ρ c)
theorem l6_arg2 : W6 m ρ c (Proc.devRef .tc main_arg2) = (m ((c : Thread nD τ).loc main_arg2)) :=
  (W6_of_ne m ρ c main_arg2 (by decide)).trans (l5_arg2 m ρ c)
theorem l6_arg6 : W6 m ρ c (Proc.devRef .tc main_arg6) = (m ((c : Thread nD τ).loc main_arg6)) :=
  (W6_of_ne m ρ c main_arg6 (by decide)).trans (l5_arg6 m ρ c)
theorem l6_arg7 : W6 m ρ c (Proc.devRef .tc main_arg7) = (m ((c : Thread nD τ).loc main_arg7)) :=
  (W6_of_ne m ρ c main_arg7 (by decide)).trans (l5_arg7 m ρ c)
theorem l6_arg8 : W6 m ρ c (Proc.devRef .tc main_arg8) = (m ((c : Thread nD τ).loc main_arg8)) :=
  (W6_of_ne m ρ c main_arg8 (by decide)).trans (l5_arg8 m ρ c)

theorem h7_v43 : W7 m ρ c (Proc.devRef .tc main_v43) = aggKer (W6 m ρ c (Proc.devRef .tc main_v33)) (W6 m ρ c (Proc.devRef .tc main_v3)) (W6 m ρ c (Proc.devRef .tc main_v6)) := by
  show StableHlo.after hostOps2 (W6 m ρ c) _ = _
  dsimp only [hostOps2]
  after_results_simp
  unfold aggKer zeroNH colE wrapN
  rfl
theorem l7_v43 : W7 m ρ c (Proc.devRef .tc main_v43) = (aggKer (scaledDot (scaleBiasRelu (aggKer (scaledDot (m ((c : Thread nD τ).loc main_arg0)) (m ((c : Thread nD τ).loc main_arg3)) (dinvCol (dst (m ((c : Thread nD τ).loc main_arg1))))) (src (m ((c : Thread nD τ).loc main_arg1))) (dst (m ((c : Thread nD τ).loc main_arg1)))) (dinvCol (dst (m ((c : Thread nD τ).loc main_arg1)))) (shapeCast (s := sH) s1H (m ((c : Thread nD τ).loc main_arg4)) (by decide))) (m ((c : Thread nD τ).loc main_arg5)) (dinvCol (dst (m ((c : Thread nD τ).loc main_arg1))))) (src (m ((c : Thread nD τ).loc main_arg1))) (dst (m ((c : Thread nD τ).loc main_arg1)))) := by
  rw [h7_v43, l6_v33, l6_v3, l6_v6]
theorem k7_v17 : W7 m ρ c (Proc.devRef .tc main_v17) = W6 m ρ c (Proc.devRef .tc main_v17) := by
  show StableHlo.after hostOps2 (W6 m ρ c) _ = _
  dsimp only [hostOps2]
  after_results_simp
theorem l7_v17 : W7 m ρ c (Proc.devRef .tc main_v17) = dinvCol (dst (m ((c : Thread nD τ).loc main_arg1))) :=
  (k7_v17 m ρ c).trans (l6_v17 m ρ c)
theorem k7_arg2 : W7 m ρ c (Proc.devRef .tc main_arg2) = W6 m ρ c (Proc.devRef .tc main_arg2) := by
  show StableHlo.after hostOps2 (W6 m ρ c) _ = _
  dsimp only [hostOps2]
  after_results_simp
theorem l7_arg2 : W7 m ρ c (Proc.devRef .tc main_arg2) = (m ((c : Thread nD τ).loc main_arg2)) :=
  (k7_arg2 m ρ c).trans (l6_arg2 m ρ c)
theorem k7_arg6 : W7 m ρ c (Proc.devRef .tc main_arg6) = W6 m ρ c (Proc.devRef .tc main_arg6) := by
  show StableHlo.after hostOps2 (W6 m ρ c) _ = _
  dsimp only [hostOps2]
  after_results_simp
theorem l7_arg6 : W7 m ρ c (Proc.devRef .tc main_arg6) = (m ((c : Thread nD τ).loc main_arg6)) :=
  (k7_arg6 m ρ c).trans (l6_arg6 m ρ c)
theorem k7_arg7 : W7 m ρ c (Proc.devRef .tc main_arg7) = W6 m ρ c (Proc.devRef .tc main_arg7) := by
  show StableHlo.after hostOps2 (W6 m ρ c) _ = _
  dsimp only [hostOps2]
  after_results_simp
theorem l7_arg7 : W7 m ρ c (Proc.devRef .tc main_arg7) = (m ((c : Thread nD τ).loc main_arg7)) :=
  (k7_arg7 m ρ c).trans (l6_arg7 m ρ c)
theorem k7_arg8 : W7 m ρ c (Proc.devRef .tc main_arg8) = W6 m ρ c (Proc.devRef .tc main_arg8) := by
  show StableHlo.after hostOps2 (W6 m ρ c) _ = _
  dsimp only [hostOps2]
  after_results_simp
theorem l7_arg8 : W7 m ρ c (Proc.devRef .tc main_arg8) = (m ((c : Thread nD τ).loc main_arg8)) :=
  (k7_arg8 m ρ c).trans (l6_arg8 m ρ c)

/-! ## The third region (rows scaled), the pooling, the last region -/

theorem l8_v44 : W8 m ρ c (Proc.devRef .tc main_v44) = (scaleRows (aggKer (scaledDot (scaleBiasRelu (aggKer (scaledDot (m ((c : Thread nD τ).loc main_arg0)) (m ((c : Thread nD τ).loc main_arg3)) (dinvCol (dst (m ((c : Thread nD τ).loc main_arg1))))) (src (m ((c : Thread nD τ).loc main_arg1))) (dst (m ((c : Thread nD τ).loc main_arg1)))) (dinvCol (dst (m ((c : Thread nD τ).loc main_arg1)))) (shapeCast (s := sH) s1H (m ((c : Thread nD τ).loc main_arg4)) (by decide))) (m ((c : Thread nD τ).loc main_arg5)) (dinvCol (dst (m ((c : Thread nD τ).loc main_arg1))))) (src (m ((c : Thread nD τ).loc main_arg1))) (dst (m ((c : Thread nD τ).loc main_arg1)))) (dinvCol (dst (m ((c : Thread nD τ).loc main_arg1))))) := by
  rw [show W8 m ρ c (Proc.devRef .tc main_v44) = (dat2 (V7 m ρ) c).arrAt 2 cfg2.N from W8_arr m ρ c 2, final2 (V7 m ρ) c]
  show scaleRows (W7 m ρ c (Proc.devRef .tc main_v43)) (W7 m ρ c (Proc.devRef .tc main_v17)) = _
  rw [l7_v43, l7_v17]
theorem l8_arg2 : W8 m ρ c (Proc.devRef .tc main_arg2) = (m ((c : Thread nD τ).loc main_arg2)) :=
  (W8_of_ne m ρ c main_arg2 (by decide)).trans (l7_arg2 m ρ c)
theorem l8_arg6 : W8 m ρ c (Proc.devRef .tc main_arg6) = (m ((c : Thread nD τ).loc main_arg6)) :=
  (W8_of_ne m ρ c main_arg6 (by decide)).trans (l7_arg6 m ρ c)
theorem l8_arg7 : W8 m ρ c (Proc.devRef .tc main_arg7) = (m ((c : Thread nD τ).loc main_arg7)) :=
  (W8_of_ne m ρ c main_arg7 (by decide)).trans (l7_arg7 m ρ c)
theorem l8_arg8 : W8 m ρ c (Proc.devRef .tc main_arg8) = (m ((c : Thread nD τ).loc main_arg8)) :=
  (W8_of_ne m ρ c main_arg8 (by decide)).trans (l7_arg8 m ρ c)

theorem W11_eq (b : DevRef τ sig) : W11 m ρ c b
    = StableHlo.after hostOps3_2 (StableHlo.after hostOps3_1p (StableHlo.after hostOps3 (W8 m ρ c))) b := by
  show StableHlo.after hostOps3_2 (StableHlo.after hostOps3_1 (StableHlo.after hostOps3 (W8 m ρ c))) b = _
  rw [hostOps3_1_eq]
set_option maxHeartbeats 4000000 in
theorem h11_v62 : W11 m ρ c (Proc.devRef .tc main_v62) = pooledKer (W8 m ρ c (Proc.devRef .tc main_v44)) (W8 m ρ c (Proc.devRef .tc main_arg2)) (W8 m ρ c (Proc.devRef .tc main_arg6)) := by
  rw [W11_eq]
  dsimp only [hostOps3_2, hostOps3_1p, hostOps3]
  after_results_simp
  unfold pooledKer meanRows cntMat cnts biasWhere colN zeroGH zeroG oneN oneG zeroGc
  rfl
theorem h11_v63 : (W11 m ρ c (Proc.devRef .tc main_v63) : sHC.Idx → EReal) = W8 m ρ c (Proc.devRef .tc main_arg7) := by
  rw [W11_eq]
  dsimp only [hostOps3_2, hostOps3_1p, hostOps3]
  after_results_simp
  rfl
theorem h11_v64 : W11 m ρ c (Proc.devRef .tc main_v64) = shapeCast (s := sC) s1C (W8 m ρ c (Proc.devRef .tc main_arg8)) (by decide) := by
  rw [W11_eq]
  dsimp only [hostOps3_2, hostOps3_1p, hostOps3]
  after_results_simp
  rfl

/-- THE KERNEL'S RESULT: the last fold's contents of the result buffer are `outKer` of the argument arrays and the index
    vectors of the edge list. -/
theorem value : W12 m ρ c (Proc.devRef .tc main_v65)
    = outKer (m ((c : Thread nD τ).loc main_arg0)) (src (m ((c : Thread nD τ).loc main_arg1))) (dst (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W12 m ρ c (Proc.devRef .tc main_v65) = (dat3 (V11 m ρ) c).arrAt 3 cfg3.N from W12_arr m ρ c 3, final3 (V11 m ρ) c]
  show lastLayer (W11 m ρ c (Proc.devRef .tc main_v62)) (W11 m ρ c (Proc.devRef .tc main_v63)) (W11 m ρ c (Proc.devRef .tc main_v64)) = _
  rw [h11_v62, h11_v64, l8_v44, l8_arg2, l8_arg6, l8_arg8]
  unfold outKer
  exact congrArg (fun w => lastLayer _ w _) ((h11_v63 m ρ c).trans (l8_arg7 m ρ c))

end Cert.KernelIdeal.KerValue

end
-- ==== Proof.RefRun.lean ====
/-
  The reference program's run, read back.

  The reference is a straight line of 106 host operations: first the index vectors (the two rows of the edge list, each
  followed by 0 … N-1), then the network on them. Every weakly fair execution performs them in order, so each buffer
  ends at the operations' composed value of the argument arrays. That value is computed here in two steps — the
  index vectors first, then the rest as a function of them — and the result is the whole-array function
  `Cert.Stages.outRef` of the arguments, with the arguments unchanged.
-/
import proofs.«171166_j2619930050604_2_alg».proof.Proof.Gen.ReferenceIdeal
import proofs.«171166_j2619930050604_2_alg».proof.Proof.Stages
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first seven operations: the two index vectors. -/
abbrev opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The other ninety-nine: the network on the index vectors. -/
abbrev opsB : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v15 : StableHlo.TRef sig ⟨S100000, .f32⟩) (.of main_call0_v1 : StableHlo.TRef sig ⟨S100000, .f32⟩) (.of main_v16 : StableHlo.TRef sig ⟨S100000, .f32⟩) select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v48 : StableHlo.TRef sig ⟨S100000x128, .f32⟩) (.of main_call1_v0 : StableHlo.TRef sig ⟨S100000x128, .f32⟩) (.of main_v49 : StableHlo.TRef sig ⟨S100000x128, .f32⟩) maximumf,
    StableHlo.binary main_v49 main_arg5 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_10 (constantI S_ 32 0#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v3 main_v51 main_v52 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v53 (broadcastInDim S1700000 ![] bcast_S_S1700000 : (⟨S_, .i32⟩ : BufTy).Contents (Elt F) → (⟨S1700000, .i32⟩ : BufTy).Contents (Elt F)),
    StableHlo.binary main_v3 main_v53 main_v54 (addi : (⟨S1700000, .i32⟩ : BufTy).Contents (Elt F) → (⟨S1700000, .i32⟩ : BufTy).Contents (Elt F) → (⟨S1700000, .i32⟩ : BufTy).Contents (Elt F)),
    StableHlo.ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v55 main_v56 (broadcastInDim S1700000x1 ![0] bcast_S1700000_S1700000x1_0 : (⟨S1700000, .i32⟩ : BufTy).Contents (Elt F) → (⟨S1700000x1, .i32⟩ : BufTy).Contents (Elt F)),
    StableHlo.binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v58 (broadcastInDim S1700000x1 ![0] bcast_S1700000_S1700000x1_0 : (⟨S1700000, .f32⟩ : BufTy).Contents (Elt F) → (⟨S1700000x1, .f32⟩ : BufTy).Contents (Elt F)),
    StableHlo.unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    StableHlo.nullary main_cst_12 (constant S_ .f32 0x00000000#32),
    StableHlo.unary main_cst_12 main_v61 (broadcastInDim S100000x128 ![] bcast_S_S100000x128 : (⟨S_, .f32⟩ : BufTy).Contents (Elt F) → (⟨S100000x128, .f32⟩ : BufTy).Contents (Elt F)),
    StableHlo.unary main_v6 main_v62 (broadcastInDim S1700000x1 ![0] bcast_S1700000_S1700000x1_0 : (⟨S1700000, .i32⟩ : BufTy).Contents (Elt F) → (⟨S1700000x1, .i32⟩ : BufTy).Contents (Elt F)),
    StableHlo.ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg6 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x00000000#32),
    StableHlo.unary main_cst_13 main_v67 (broadcastInDim S64x128 ![] bcast_S_S64x128 : (⟨S_, .f32⟩ : BufTy).Contents (Elt F) → (⟨S64x128, .f32⟩ : BufTy).Contents (Elt F)),
    StableHlo.unary main_arg2 main_v68 (broadcastInDim S100000x1 ![0] bcast_S100000_S100000x1_0 : (⟨S100000, .i32⟩ : BufTy).Contents (Elt F) → (⟨S100000x1, .i32⟩ : BufTy).Contents (Elt F)),
    StableHlo.ternary main_v67 main_v68 main_v66 main_v69 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_14 (constant S_ .f32 0x3F800000#32),
    StableHlo.unary main_cst_14 main_v70 (broadcastInDim S100000 ![] bcast_S_S100000 : (⟨S_, .f32⟩ : BufTy).Contents (Elt F) → (⟨S100000, .f32⟩ : BufTy).Contents (Elt F)),
    StableHlo.nullary main_cst_15 (constant S_ .f32 0x00000000#32),
    StableHlo.unary main_cst_15 main_v71 (broadcastInDim S64 ![] bcast_S_S64 : (⟨S_, .f32⟩ : BufTy).Contents (Elt F) → (⟨S64, .f32⟩ : BufTy).Contents (Elt F)),
    StableHlo.unary main_arg2 main_v72 (broadcastInDim S100000x1 ![0] bcast_S100000_S100000x1_0 : (⟨S100000, .i32⟩ : BufTy).Contents (Elt F) → (⟨S100000x1, .i32⟩ : BufTy).Contents (Elt F)),
    StableHlo.ternary main_v71 main_v72 main_v70 main_v73 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_16 (constant S_ .f32 0x3F800000#32),
    StableHlo.unary main_cst_16 main_v74 (broadcastInDim S64 ![] bcast_S_S64 : (⟨S_, .f32⟩ : BufTy).Contents (Elt F) → (⟨S64, .f32⟩ : BufTy).Contents (Elt F)),
    StableHlo.binary main_v73 main_v74 main_v75 (maximumf : (⟨S64, .f32⟩ : BufTy).Contents (Elt F) → (⟨S64, .f32⟩ : BufTy).Contents (Elt F) → (⟨S64, .f32⟩ : BufTy).Contents (Elt F)),
    StableHlo.unary main_v75 main_v76 (broadcastInDim S64x1 ![0] bcast_S64_S64x1_0 : (⟨S64, .f32⟩ : BufTy).Contents (Elt F) → (⟨S64x1, .f32⟩ : BufTy).Contents (Elt F)),
    StableHlo.unary main_v76 main_v77 (broadcastInDim S64x128 ![0, 1] bcast_S64x1_S64x128_0_1 : (⟨S64x1, .f32⟩ : BufTy).Contents (Elt F) → (⟨S64x128, .f32⟩ : BufTy).Contents (Elt F)),
    StableHlo.binary main_v69 main_v77 main_v78 (Host.divf : (⟨S64x128, .f32⟩ : BufTy).Contents (Elt F) → (⟨S64x128, .f32⟩ : BufTy).Contents (Elt F) → (⟨S64x128, .f32⟩ : BufTy).Contents (Elt F)),
    StableHlo.binary main_v78 main_arg7 main_v79 ((fun l r => Host.dotGeneral dot_S64x128_S128x8_S64x8_1_0_0_1_n_n none l r) : (⟨S64x128, .f32⟩ : BufTy).Contents (Elt F) → (⟨S128x8, .f32⟩ : BufTy).Contents (Elt F) → (⟨S64x8, .f32⟩ : BufTy).Contents (Elt F)),
    StableHlo.unary main_arg8 main_v80 (broadcastInDim S1x8 ![1] bcast_S8_S1x8_1 : (⟨S8, .f32⟩ : BufTy).Contents (Elt F) → (⟨S1x8, .f32⟩ : BufTy).Contents (Elt F)),
    StableHlo.unary main_v80 main_v81 (broadcastInDim S64x8 ![0, 1] bcast_S1x8_S64x8_0_1 : (⟨S1x8, .f32⟩ : BufTy).Contents (Elt F) → (⟨S64x8, .f32⟩ : BufTy).Contents (Elt F)),
    StableHlo.binary main_v79 main_v81 main_v82 (addf : (⟨S64x8, .f32⟩ : BufTy).Contents (Elt F) → (⟨S64x8, .f32⟩ : BufTy).Contents (Elt F) → (⟨S64x8, .f32⟩ : BufTy).Contents (Elt F)) ]

/-- @main's operations in order (a called function's operations stand in its call's place). -/
abbrev ops : List (HloOp τ sig (Elt F)) := opsA ++ opsB

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub ..⟩
set_option maxRecDepth 8192 in
theorem opsB_sub : (opsB : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

end Cert.ReferenceIdeal.RefRun

end
-- ==== Proof.RefValue.lean ====
/-
  What the reference computes: the operations' composed value of the argument arrays is `Cert.Stages.outRef`.

  The first seven operations build the two index vectors (a row of the edge list followed by 0 … N-1); read at their
  result buffers they are `src` and `dst` of the edge list. The other ninety-nine, read at the result buffer as a
  function of the contents they start from, are `outRef` of the arguments and the two index vectors: each host
  operation is the corresponding whole-array operation of that definition. No operation writes an argument.
-/
import proofs.«171166_j2619930050604_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun Cert.Stages

variable {F : FTy → Type} [FloatOps F] in
/-- The network's ninety-nine operations with the two called functions' lines (the select of the normalisation, the
    maximum with zero) written as plain operations on their buffers: the same list. -/
abbrev opsBp : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v48 main_call1_v0 main_v49 (maximumf : (⟨S100000x128, .f32⟩ : BufTy).Contents (Elt F) → (⟨S100000x128, .f32⟩ : BufTy).Contents (Elt F) → (⟨S100000x128, .f32⟩ : BufTy).Contents (Elt F)),
    StableHlo.binary main_v49 main_arg5 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_10 (constantI S_ 32 0#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v3 main_v51 main_v52 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v53 (broadcastInDim S1700000 ![] bcast_S_S1700000 : (⟨S_, .i32⟩ : BufTy).Contents (Elt F) → (⟨S1700000, .i32⟩ : BufTy).Contents (Elt F)),
    StableHlo.binary main_v3 main_v53 main_v54 (addi : (⟨S1700000, .i32⟩ : BufTy).Contents (Elt F) → (⟨S1700000, .i32⟩ : BufTy).Contents (Elt F) → (⟨S1700000, .i32⟩ : BufTy).Contents (Elt F)),
    StableHlo.ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v55 main_v56 (broadcastInDim S1700000x1 ![0] bcast_S1700000_S1700000x1_0 : (⟨S1700000, .i32⟩ : BufTy).Contents (Elt F) → (⟨S1700000x1, .i32⟩ : BufTy).Contents (Elt F)),
    StableHlo.binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v58 (broadcastInDim S1700000x1 ![0] bcast_S1700000_S1700000x1_0 : (⟨S1700000, .f32⟩ : BufTy).Contents (Elt F) → (⟨S1700000x1, .f32⟩ : BufTy).Contents (Elt F)),
    StableHlo.unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    StableHlo.nullary main_cst_12 (constant S_ .f32 0x00000000#32),
    StableHlo.unary main_cst_12 main_v61 (broadcastInDim S100000x128 ![] bcast_S_S100000x128 : (⟨S_, .f32⟩ : BufTy).Contents (Elt F) → (⟨S100000x128, .f32⟩ : BufTy).Contents (Elt F)),
    StableHlo.unary main_v6 main_v62 (broadcastInDim S1700000x1 ![0] bcast_S1700000_S1700000x1_0 : (⟨S1700000, .i32⟩ : BufTy).Contents (Elt F) → (⟨S1700000x1, .i32⟩ : BufTy).Contents (Elt F)),
    StableHlo.ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg6 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x00000000#32),
    StableHlo.unary main_cst_13 main_v67 (broadcastInDim S64x128 ![] bcast_S_S64x128 : (⟨S_, .f32⟩ : BufTy).Contents (Elt F) → (⟨S64x128, .f32⟩ : BufTy).Contents (Elt F)),
    StableHlo.unary main_arg2 main_v68 (broadcastInDim S100000x1 ![0] bcast_S100000_S100000x1_0 : (⟨S100000, .i32⟩ : BufTy).Contents (Elt F) → (⟨S100000x1, .i32⟩ : BufTy).Contents (Elt F)),
    StableHlo.ternary main_v67 main_v68 main_v66 main_v69 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_14 (constant S_ .f32 0x3F800000#32),
    StableHlo.unary main_cst_14 main_v70 (broadcastInDim S100000 ![] bcast_S_S100000 : (⟨S_, .f32⟩ : BufTy).Contents (Elt F) → (⟨S100000, .f32⟩ : BufTy).Contents (Elt F)),
    StableHlo.nullary main_cst_15 (constant S_ .f32 0x00000000#32),
    StableHlo.unary main_cst_15 main_v71 (broadcastInDim S64 ![] bcast_S_S64 : (⟨S_, .f32⟩ : BufTy).Contents (Elt F) → (⟨S64, .f32⟩ : BufTy).Contents (Elt F)),
    StableHlo.unary main_arg2 main_v72 (broadcastInDim S100000x1 ![0] bcast_S100000_S100000x1_0 : (⟨S100000, .i32⟩ : BufTy).Contents (Elt F) → (⟨S100000x1, .i32⟩ : BufTy).Contents (Elt F)),
    StableHlo.ternary main_v71 main_v72 main_v70 main_v73 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_16 (constant S_ .f32 0x3F800000#32),
    StableHlo.unary main_cst_16 main_v74 (broadcastInDim S64 ![] bcast_S_S64 : (⟨S_, .f32⟩ : BufTy).Contents (Elt F) → (⟨S64, .f32⟩ : BufTy).Contents (Elt F)),
    StableHlo.binary main_v73 main_v74 main_v75 (maximumf : (⟨S64, .f32⟩ : BufTy).Contents (Elt F) → (⟨S64, .f32⟩ : BufTy).Contents (Elt F) → (⟨S64, .f32⟩ : BufTy).Contents (Elt F)),
    StableHlo.unary main_v75 main_v76 (broadcastInDim S64x1 ![0] bcast_S64_S64x1_0 : (⟨S64, .f32⟩ : BufTy).Contents (Elt F) → (⟨S64x1, .f32⟩ : BufTy).Contents (Elt F)),
    StableHlo.unary main_v76 main_v77 (broadcastInDim S64x128 ![0, 1] bcast_S64x1_S64x128_0_1 : (⟨S64x1, .f32⟩ : BufTy).Contents (Elt F) → (⟨S64x128, .f32⟩ : BufTy).Contents (Elt F)),
    StableHlo.binary main_v69 main_v77 main_v78 (Host.divf : (⟨S64x128, .f32⟩ : BufTy).Contents (Elt F) → (⟨S64x128, .f32⟩ : BufTy).Contents (Elt F) → (⟨S64x128, .f32⟩ : BufTy).Contents (Elt F)),
    StableHlo.binary main_v78 main_arg7 main_v79 ((fun l r => Host.dotGeneral dot_S64x128_S128x8_S64x8_1_0_0_1_n_n none l r) : (⟨S64x128, .f32⟩ : BufTy).Contents (Elt F) → (⟨S128x8, .f32⟩ : BufTy).Contents (Elt F) → (⟨S64x8, .f32⟩ : BufTy).Contents (Elt F)),
    StableHlo.unary main_arg8 main_v80 (broadcastInDim S1x8 ![1] bcast_S8_S1x8_1 : (⟨S8, .f32⟩ : BufTy).Contents (Elt F) → (⟨S1x8, .f32⟩ : BufTy).Contents (Elt F)),
    StableHlo.unary main_v80 main_v81 (broadcastInDim S64x8 ![0, 1] bcast_S1x8_S64x8_0_1 : (⟨S1x8, .f32⟩ : BufTy).Contents (Elt F) → (⟨S64x8, .f32⟩ : BufTy).Contents (Elt F)),
    StableHlo.binary main_v79 main_v81 main_v82 (addf : (⟨S64x8, .f32⟩ : BufTy).Contents (Elt F) → (⟨S64x8, .f32⟩ : BufTy).Contents (Elt F) → (⟨S64x8, .f32⟩ : BufTy).Contents (Elt F)) ]
set_option maxRecDepth 8192 in
set_option maxHeartbeats 4000000 in
theorem opsB_eq {F : FTy → Type} [FloatOps F] : (opsB : List (HloOp τ sig (Elt F))) = opsBp := rfl

variable (V : Valuation τ sig (Elt Ideal))

/-- After the first seven operations the sources' buffer holds row 0 of the edge list followed by 0 … N-1. -/
theorem evalA_v3 : after (opsA (F := Ideal)) V (Proc.devRef .tc main_v3) = src (V (Proc.devRef .tc main_arg1)) := by
  after_results
  rfl
/-- And the targets' buffer row 1 followed by 0 … N-1. -/
theorem evalA_v6 : after (opsA (F := Ideal)) V (Proc.devRef .tc main_v6) = dst (V (Proc.devRef .tc main_arg1)) := by
  after_results
  rfl
theorem evalA_arg0 : after (opsA (F := Ideal)) V (Proc.devRef .tc main_arg0) = V (Proc.devRef .tc main_arg0) := by
  after_results
theorem evalA_arg1 : after (opsA (F := Ideal)) V (Proc.devRef .tc main_arg1) = V (Proc.devRef .tc main_arg1) := by
  after_results
theorem evalA_arg2 : after (opsA (F := Ideal)) V (Proc.devRef .tc main_arg2) = V (Proc.devRef .tc main_arg2) := by
  after_results
theorem evalA_arg3 : after (opsA (F := Ideal)) V (Proc.devRef .tc main_arg3) = V (Proc.devRef .tc main_arg3) := by
  after_results
theorem evalA_arg4 : after (opsA (F := Ideal)) V (Proc.devRef .tc main_arg4) = V (Proc.devRef .tc main_arg4) := by
  after_results
theorem evalA_arg5 : after (opsA (F := Ideal)) V (Proc.devRef .tc main_arg5) = V (Proc.devRef .tc main_arg5) := by
  after_results
theorem evalA_arg6 : after (opsA (F := Ideal)) V (Proc.devRef .tc main_arg6) = V (Proc.devRef .tc main_arg6) := by
  after_results
theorem evalA_arg7 : after (opsA (F := Ideal)) V (Proc.devRef .tc main_arg7) = V (Proc.devRef .tc main_arg7) := by
  after_results
theorem evalA_arg8 : after (opsA (F := Ideal)) V (Proc.devRef .tc main_arg8) = V (Proc.devRef .tc main_arg8) := by
  after_results

set_option maxRecDepth 200000 in
set_option maxHeartbeats 40000000 in
/-- The network's ninety-nine operations, read at the result buffer from any contents. -/
theorem evalB_out : after (opsB (F := Ideal)) V (Proc.devRef .tc main_v82)
    = outRef (V (Proc.devRef .tc main_arg0)) (V (Proc.devRef .tc main_v3)) (V (Proc.devRef .tc main_v6)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [opsB_eq]
  after_results_simp
  unfold outRef meanRows cntMat cnts h2Ref h1Ref convRef normMat Cert.Stages.norm dinv deg biasN biasG colE colN wrapN
  unfold zeroN oneN oneE zeroNH zeroG oneG zeroGH
  rfl
set_option maxRecDepth 8192 in
theorem evalB_arg0 : after (opsB (F := Ideal)) V (Proc.devRef .tc main_arg0) = V (Proc.devRef .tc main_arg0) := by
  after_results_simp
set_option maxRecDepth 8192 in
theorem evalB_arg1 : after (opsB (F := Ideal)) V (Proc.devRef .tc main_arg1) = V (Proc.devRef .tc main_arg1) := by
  after_results_simp
set_option maxRecDepth 8192 in
theorem evalB_arg2 : after (opsB (F := Ideal)) V (Proc.devRef .tc main_arg2) = V (Proc.devRef .tc main_arg2) := by
  after_results_simp
set_option maxRecDepth 8192 in
theorem evalB_arg3 : after (opsB (F := Ideal)) V (Proc.devRef .tc main_arg3) = V (Proc.devRef .tc main_arg3) := by
  after_results_simp
set_option maxRecDepth 8192 in
theorem evalB_arg4 : after (opsB (F := Ideal)) V (Proc.devRef .tc main_arg4) = V (Proc.devRef .tc main_arg4) := by
  after_results_simp
set_option maxRecDepth 8192 in
theorem evalB_arg5 : after (opsB (F := Ideal)) V (Proc.devRef .tc main_arg5) = V (Proc.devRef .tc main_arg5) := by
  after_results_simp
set_option maxRecDepth 8192 in
theorem evalB_arg6 : after (opsB (F := Ideal)) V (Proc.devRef .tc main_arg6) = V (Proc.devRef .tc main_arg6) := by
  after_results_simp
set_option maxRecDepth 8192 in
theorem evalB_arg7 : after (opsB (F := Ideal)) V (Proc.devRef .tc main_arg7) = V (Proc.devRef .tc main_arg7) := by
  after_results_simp
set_option maxRecDepth 8192 in
theorem evalB_arg8 : after (opsB (F := Ideal)) V (Proc.devRef .tc main_arg8) = V (Proc.devRef .tc main_arg8) := by
  after_results_simp

/-- The whole line read at the result buffer. -/
theorem eval_out : after (ops (F := Ideal)) V (Proc.devRef .tc main_v82)
    = outRef (V (Proc.devRef .tc main_arg0)) (src (V (Proc.devRef .tc main_arg1))) (dst (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show after (opsA ++ opsB) V _ = _
  rw [StableHlo.after_append, evalB_out, evalA_v3, evalA_v6, evalA_arg0, evalA_arg2, evalA_arg3, evalA_arg4, evalA_arg5, evalA_arg6, evalA_arg7, evalA_arg8]
theorem eval_arg0 : after (ops (F := Ideal)) V (Proc.devRef .tc main_arg0) = V (Proc.devRef .tc main_arg0) := by
  show after (opsA ++ opsB) V _ = _
  rw [StableHlo.after_append, evalB_arg0, evalA_arg0]
theorem eval_arg1 : after (ops (F := Ideal)) V (Proc.devRef .tc main_arg1) = V (Proc.devRef .tc main_arg1) := by
  show after (opsA ++ opsB) V _ = _
  rw [StableHlo.after_append, evalB_arg1, evalA_arg1]
theorem eval_arg2 : after (ops (F := Ideal)) V (Proc.devRef .tc main_arg2) = V (Proc.devRef .tc main_arg2) := by
  show after (opsA ++ opsB) V _ = _
  rw [StableHlo.after_append, evalB_arg2, evalA_arg2]
theorem eval_arg3 : after (ops (F := Ideal)) V (Proc.devRef .tc main_arg3) = V (Proc.devRef .tc main_arg3) := by
  show after (opsA ++ opsB) V _ = _
  rw [StableHlo.after_append, evalB_arg3, evalA_arg3]
theorem eval_arg4 : after (ops (F := Ideal)) V (Proc.devRef .tc main_arg4) = V (Proc.devRef .tc main_arg4) := by
  show after (opsA ++ opsB) V _ = _
  rw [StableHlo.after_append, evalB_arg4, evalA_arg4]
theorem eval_arg5 : after (ops (F := Ideal)) V (Proc.devRef .tc main_arg5) = V (Proc.devRef .tc main_arg5) := by
  show after (opsA ++ opsB) V _ = _
  rw [StableHlo.after_append, evalB_arg5, evalA_arg5]
theorem eval_arg6 : after (ops (F := Ideal)) V (Proc.devRef .tc main_arg6) = V (Proc.devRef .tc main_arg6) := by
  show after (opsA ++ opsB) V _ = _
  rw [StableHlo.after_append, evalB_arg6, evalA_arg6]
theorem eval_arg7 : after (ops (F := Ideal)) V (Proc.devRef .tc main_arg7) = V (Proc.devRef .tc main_arg7) := by
  show after (opsA ++ opsB) V _ = _
  rw [StableHlo.after_append, evalB_arg7, evalA_arg7]
theorem eval_arg8 : after (ops (F := Ideal)) V (Proc.devRef .tc main_arg8) = V (Proc.devRef .tc main_arg8) := by
  show after (opsA ++ opsB) V _ = _
  rw [StableHlo.after_append, evalB_arg8, evalA_arg8]

/-- From any memory with zero counters every weakly fair execution of the reference terminates, its result buffer
    at `outRef` of the arguments and the index vectors of the edge list, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82)
        = outRef (m ((c.tc : Thread nD τ).loc main_arg0)) (src (m ((c.tc : Thread nD τ).loc main_arg1))) (dst (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v82).trans (eval_out _),
      (h c main_arg0).trans (eval_arg0 _),
      (h c main_arg1).trans (eval_arg1 _),
      (h c main_arg2).trans (eval_arg2 _),
      (h c main_arg3).trans (eval_arg3 _),
      (h c main_arg4).trans (eval_arg4 _),
      (h c main_arg5).trans (eval_arg5 _),
      (h c main_arg6).trans (eval_arg6 _),
      (h c main_arg7).trans (eval_arg7 _),
      (h c main_arg8).trans (eval_arg8 _)⟩)
    (run_seq scopedRefs_eq scopedSems_eq defs main (fun _ => (ops (F := Ideal))) main_eq (fun _ => ops_sub) m ρ)

end Cert.ReferenceIdeal.RefValue

end
-- ==== Proof.LibRecip.lean ====
/-
  Division by a nonzero real, at the ideal values, is multiplication by the reciprocal; and which extended reals are
  reals: a finite sum of reals, the maximum of two reals, the float words of one and of zero.
-/
import Idealize.ShloMosaic.PureOps.Ideal

open scoped BigOperators

namespace Cert.Lib

open Idealize.ShloMosaic

/-- Multiplying by `1 / r` is dividing by `r`, for a nonzero real `r` and any extended real `a`. -/
theorem mul_div_one (a : EReal) {r : ℝ} (hr : r ≠ 0) :
    a * Ideal.div 1 (r : EReal) = Ideal.div a (r : EReal) := by
  rw [Ideal.div_coe hr, Ideal.div_coe hr, one_mul]

/-- The same for the host's float division at the ideal values. -/
theorem mul_hostDivf_one (a : EReal) {r : ℝ} (hr : r ≠ 0) :
    a * FloatOps.hostDivf (F := Ideal) (φ := .f32) (1 : EReal) (r : EReal) =
      FloatOps.hostDivf (F := Ideal) (φ := .f32) a (r : EReal) := by
  rw [Ideal.hostDivf_def, Ideal.hostDivf_def]
  exact mul_div_one a hr

/-- A finite sum of extended reals each of which is a real is a real. -/
theorem exists_coe_sum {ι : Type*} (s : Finset ι) (f : ι → EReal) (h : ∀ i ∈ s, ∃ r : ℝ, f i = (r : EReal)) :
    ∃ r : ℝ, ∑ i ∈ s, f i = (r : EReal) := by
  classical
  revert h
  refine Finset.induction_on s ?_ ?_
  · intro _
    exact ⟨0, by rw [Finset.sum_empty]; rfl⟩
  · intro a s ha ih h
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

/-- The same over a whole finite type. -/
theorem exists_coe_sum_univ {ι : Type*} [Fintype ι] (f : ι → EReal) (h : ∀ i, ∃ r : ℝ, f i = (r : EReal)) :
    ∃ r : ℝ, ∑ i, f i = (r : EReal) :=
  exists_coe_sum Finset.univ f (fun i _ => h i)

/-- The maximum of two reals, taken among the extended reals, is their maximum as reals. -/
theorem max_coe (a b : ℝ) : max (a : EReal) (b : EReal) = ((max a b : ℝ) : EReal) :=
  (Monotone.map_max EReal.coe_strictMono.monotone).symm

/-- The float word 0x3F800000 is the real one. -/
theorem ofBits_one_f32 : Ideal.ofBits .f32 0x3F800000#32 = ((1 : ℝ) : EReal) := by
  simp [Ideal.ofBits, Ideal.ieee, -EReal.coe_mul]
  norm_num

/-- The float word 0x00000000 is the real zero. -/
theorem ofBits_zero_f32 : Ideal.ofBits .f32 0x00000000#32 = ((0 : ℝ) : EReal) := by
  simp [Ideal.ofBits, Ideal.ieee]

end Cert.Lib
-- ==== Proof.LibScatterCount.lean ====
/-
  Counting with an accumulating scatter, at the extended reals.

  The host's float scatter with an add body has a closed form at the extended reals: each operand entry plus the finite
  sum of the updates that land on it. Stated as an equation between the host operation and that closed form, it is used
  by rewriting — comparing the two by unfolding instead makes the elaborator open the extended reals' addition and then
  evaluate float literals over the reals. A count is the special case of a zero operand and updates that are all one: every
  entry is zero plus a finite sum of ones, a real number, whatever the shapes and whatever the index words.
-/
import Idealize.ShloMosaic.PureOps.Ideal
import proofs.«171166_j2619930050604_2_alg».proof.Proof.LibRecip

noncomputable section

open scoped BigOperators

namespace Cert.Lib.ScatterCount

open Idealize.ShloMosaic

/-- At the extended reals the host's accumulating scatter IS its closed form (rewrite with this; do not unfold). -/
theorem hostScatterAdd_closed {s si su : Shape} (d : ScatterDims s si su) {w : Nat} (x : FVec Ideal s .f32) (idx : IVec si w)
    (upd : FVec Ideal su .f32) : Host.scatterAdd (F := Ideal) d x idx upd = Ideal.hostScatterAdd d x idx upd := rfl

/-- Zero plus a finite sum of ones is a real number. -/
theorem zero_add_ones_real {ι : Type} (a : EReal) (f : ι → EReal) (S : Finset ι) (ha : a = ((0 : ℝ) : EReal))
    (hf : ∀ j, f j = ((1 : ℝ) : EReal)) : ∃ s : ℝ, a + ∑ j ∈ S, f j = (s : EReal) := by
  obtain ⟨s, hs⟩ := Cert.Lib.exists_coe_sum S f (fun j _ => ⟨1, hf j⟩)
  exact ⟨0 + s, by rw [ha, hs, EReal.coe_add]⟩

/-- Where the operand is zero and every update is one, an entry of the accumulating scatter is a real number, whatever
    the indices. -/
theorem scatter_ones_real {s si su : Shape} (d : ScatterDims s si su) {w : Nat} (x : s.Idx → EReal) (idx : IVec si w)
    (upd : su.Idx → EReal) (i : s.Idx) (hx : x i = ((0 : ℝ) : EReal)) (hu : ∀ j, upd j = ((1 : ℝ) : EReal)) :
    ∃ r : ℝ, Ideal.hostScatterAdd d x idx upd i = (r : EReal) := by
  unfold Ideal.hostScatterAdd
  exact zero_add_ones_real _ _ _ hx hu

end Cert.Lib.ScatterCount

end
-- ==== Proof.LibSignedIndex.lean ====
/-
  32-bit indices read as signed integers: the facts a program that indexes with `x[idx]` or `x.at[idx]` leaves to prove.

  Such a program first wraps a negative index by adding the axis extent (select (idx < 0) (idx + extent) idx), and
  often masks an index to a range before using it (select (0 ≤ idx ∧ idx < bound) idx 0). Here, for 32-bit words:
    * a small natural number n (n < 2³¹) as a 32-bit word reads back, signed, as n; and a word equals it exactly when
      the word's signed reading is n;
    * the wrap leaves an index that is not negative alone, whatever the extent;
    * an index masked to [0, bound) — kept when in range, replaced by 0 otherwise — is never negative, whatever the bound.
-/
import Idealize.ShloMosaic.PureOps.Ideal

namespace Cert.Lib.SignedIndex

open Idealize.ShloMosaic

/-- A word is the natural number n < 2³¹ exactly when its signed reading is n. -/
theorem ofNat_eq_iff_toInt (v : BitVec 32) (n : Nat) (hn : n < 2147483648) : (BitVec.ofNat 32 n = v) ↔ v.toInt = (n : Int) := by
  have hc := BitVec.toInt_eq_toNat_cond v
  have hlt := v.isLt
  constructor
  · rintro rfl
    rw [hc, BitVec.toNat_ofNat, Nat.mod_eq_of_lt (by omega)]
    rw [if_pos (by omega)]
  · intro h
    apply BitVec.eq_of_toNat_eq
    rw [BitVec.toNat_ofNat, Nat.mod_eq_of_lt (by omega)]
    split_ifs at hc <;> omega

/-- The natural number n < 2³¹ as a word reads back, signed, as n. -/
theorem toInt_ofNat_small (n : Nat) (hn : n < 2147483648) : (BitVec.ofNat 32 n).toInt = (n : Int) :=
  (ofNat_eq_iff_toInt _ n hn).1 rfl

/-- Wrapping a negative index by the extent c does nothing to an index that is not negative. -/
theorem wrap_of_nonneg (v c : BitVec 32) (h : 0 ≤ v.toInt) :
    Scalar.select (IntOp.cmpi .slt v 0#32) (IntOp.addi v c) v = v := by
  have : IntOp.cmpi .slt v 0#32 = 0#1 := by
    simp only [IntOp.cmpi, BitVec.slt]
    have : ¬ v.toInt < 0 := by omega
    simp [this]
  rw [this]; rfl

/-- An index masked to [0, c) — itself when 0 ≤ v and v < c (signed), else 0 — is never negative. -/
theorem masked_nonneg (v c : BitVec 32) :
    0 ≤ (Scalar.select (IntOp.andi (IntOp.cmpi .sge v 0#32) (IntOp.cmpi .slt v c)) v 0#32).toInt := by
  unfold Scalar.select
  split
  · rename_i h
    simp only [IntOp.andi, IntOp.cmpi, BitVec.sle, BitVec.slt] at h
    by_cases h1 : 0 ≤ v.toInt
    · exact h1
    · simp [h1] at h
  · decide

end Cert.Lib.SignedIndex
-- ==== Proof.AlgebraRead.lean ====
/-
  The arrays of both programs read at an index: a vector made a column or a row, a column or a row carried over a
  matrix, the accumulating scatters, the gathers, and the index words (a slot's target label, and the node row a
  slot's word selects once a negative word has been moved up by N and the result clamped).
-/
import proofs.«171166_j2619930050604_2_alg».proof.Proof.Stages
import proofs.«171166_j2619930050604_2_alg».proof.Proof.LibScatterCount
import proofs.«171166_j2619930050604_2_alg».proof.Proof.LibSignedIndex
import proofs.«171166_j2619930050604_2_alg».proof.Proof.LibKeepdimsColumn
import Idealize.ShloMosaic.Lib.ValueIdx
import Idealize.ShloMosaic.Lib.Pipeline.Value

noncomputable section

open scoped BigOperators

namespace Cert.Stages

open Idealize.ShloMosaic Idealize.ShloMosaic.ValueIdx Cert.Lib.RowGather

/-! ## Broadcasts at an index -/

/-- A vector of a numbers as an a×1 column (a broadcast along a new trailing unit axis), entry (p, 0). -/
theorem vecCol_at {α : Type} {a : Nat} (ha : a ≠ 1) (u : (⟨1, ![a]⟩ : Shape).Idx → α)
    (h : (⟨1, ![a]⟩ : Shape).BroadcastsInDim ⟨2, ![a, 1]⟩ ![0]) (p : Fin a) :
    broadcastInDim ⟨2, ![a, 1]⟩ ![0] h u (ix2 (n0 := a) (n1 := 1) p ⟨0, Nat.one_pos⟩) = u (ix1 p) :=
  broadcastInDim_apply ![0] h u _ (ix1 p) (fun i => by
    match i with
    | ⟨0, _⟩ => exact (if_neg ha).symm)

/-- A vector of n numbers as a 1×n row (a broadcast along a new leading unit axis), entry (0, q). -/
theorem vecRow_at {α : Type} {n : Nat} (hn : n ≠ 1) (u : (⟨1, ![n]⟩ : Shape).Idx → α)
    (h : (⟨1, ![n]⟩ : Shape).BroadcastsInDim ⟨2, ![1, n]⟩ ![1]) (q : Fin n) :
    broadcastInDim ⟨2, ![1, n]⟩ ![1] h u (ix2 (n0 := 1) (n1 := n) ⟨0, Nat.one_pos⟩ q) = u (ix1 q) :=
  broadcastInDim_apply ![1] h u _ (ix1 q) (fun i => by
    match i with
    | ⟨0, _⟩ => exact (if_neg hn).symm)

/-- An a×1 column carried along b columns, entry (p, q): the column's entry of row p. -/
theorem colMat_at {α : Type} {a b : Nat} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 (n0 := a) (n1 := 1) p ⟨0, Nat.one_pos⟩) :=
  broadcastInDim_apply ![0, 1] h v (ix2 p q) _ (fun i => by
    match i with
    | ⟨0, _⟩ =>
      show p.val = if a = 1 then 0 else p.val
      split
      · have := p.isLt; omega
      · rfl
    | ⟨1, _⟩ =>
      show 0 = if (1 : Nat) = 1 then 0 else q.val
      rw [if_pos rfl])

/-- A 1×b row carried along a rows, entry (p, q): the row's entry of column q. -/
theorem rowMat_at {α : Type} {a b : Nat} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (n0 := 1) (n1 := b) ⟨0, Nat.one_pos⟩ q) :=
  broadcastInDim_apply ![0, 1] h v (ix2 p q) _ (fun i => by
    match i with
    | ⟨0, _⟩ => exact (if_pos rfl).symm
    | ⟨1, _⟩ =>
      show q.val = if b = 1 then 0 else q.val
      split
      · have := q.isLt; omega
      · rfl)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The programs' columns, rows and matrices at an index -/

theorem colE_at (v : IVec sE 32) (e : Fin 1700000) :
    colE v (ix2 (n0 := 1700000) (n1 := 1) e ⟨0, Nat.one_pos⟩) = v (ix1 e) := vecCol_at (by decide) v _ e

theorem colN_at (bt : IVec sN 32) (v : Fin 100000) :
    colN bt (ix2 (n0 := 100000) (n1 := 1) v ⟨0, Nat.one_pos⟩) = bt (ix1 v) := vecCol_at (by decide) bt _ v

theorem biasN_at (b : FVec Ideal sH .f32) (v : Fin 100000) (c : Fin 128) : biasN b (ix2 v c) = b (ix1 c) :=
  (rowMat_at _ _ v c).trans (vecRow_at (by decide) b _ c)

theorem normMat_at (s d : IVec sE 32) (e : Fin 1700000) (c : Fin 128) : normMat s d (ix2 e c) = norm s d (ix1 e) :=
  (colMat_at _ _ e c).trans (vecCol_at (by decide) (norm s d) _ e)

theorem dinvCol_at (d : IVec sE 32) (v : Fin 100000) :
    dinvCol d (ix2 (n0 := 100000) (n1 := 1) v ⟨0, Nat.one_pos⟩) = dinv d (ix1 v) :=
  Cert.Lib.KeepdimsColumn.column_cast_at (dinv d) _ v

/-- Any column carried over the node matrix. -/
theorem colNH_at (dc : FVec Ideal sNc .f32) (h : sNc.BroadcastsInDim sNH ![0, 1]) (v : Fin 100000) (c : Fin 128) :
    broadcastInDim sNH ![0, 1] h dc (ix2 v c) = dc (ix2 (n0 := 100000) (n1 := 1) v ⟨0, Nat.one_pos⟩) := colMat_at dc h v c

/-! ## The accumulating scatters at an index -/

theorem edgeRows_read (x : FVec Ideal sNH .f32) (idx : IVec sEc 32) (upd : FVec Ideal sEH .f32) (v : Fin 100000) (c : Fin 128) :
    Host.scatterAdd scEdgeRows x idx upd (ix2 v c) =
      x (ix2 v c) + ∑ e : Fin 1700000,
        if (idx (ix2 (n0 := 1700000) (n1 := 1) e ⟨0, Nat.one_pos⟩)).toInt = (v.val : Int) then upd (ix2 e c) else 0 := by
  rw [Cert.Lib.ScatterCount.hostScatterAdd_closed]
  exact Cert.Lib.SegmentRows.hostScatterAdd_segRows_apply _ x idx upd v c

theorem poolRows_read (x : FVec Ideal sGH .f32) (idx : IVec sNc 32) (upd : FVec Ideal sNH .f32) (g : Fin 64) (c : Fin 128) :
    Host.scatterAdd scPoolRows x idx upd (ix2 g c) =
      x (ix2 g c) + ∑ v : Fin 100000,
        if (idx (ix2 (n0 := 100000) (n1 := 1) v ⟨0, Nat.one_pos⟩)).toInt = (g.val : Int) then upd (ix2 v c) else 0 := by
  rw [Cert.Lib.ScatterCount.hostScatterAdd_closed]
  exact Cert.Lib.SegmentRows.hostScatterAdd_segRows_apply _ x idx upd g c

theorem segIdx_ix1 {K : Nat} (v : Fin K) : Cert.Lib.segIdx (ix1 v) = ix2 (n0 := K) (n1 := 1) v ⟨0, Nat.one_pos⟩ := by
  funext a
  match a with
  | ⟨0, _⟩ => rfl
  | ⟨1, _⟩ => rfl

theorem pool_read (x : FVec Ideal sG .f32) (idx : IVec sNc 32) (upd : FVec Ideal sN .f32) (g : Fin 64) :
    Host.scatterAdd scPool x idx upd (ix1 g) =
      x (ix1 g) + ∑ v : Fin 100000,
        if (idx (ix2 (n0 := 100000) (n1 := 1) v ⟨0, Nat.one_pos⟩)).toInt = (g.val : Int) then upd (ix1 v) else 0 := by
  rw [Cert.Lib.ScatterCount.hostScatterAdd_closed]
  refine (Cert.Lib.hostScatterAdd_seg_apply _ x idx upd (ix1 g)).trans ?_
  rw [sum_idx1]
  refine congrArg (x (ix1 g) + ·) (Finset.sum_congr rfl fun v _ => ?_)
  rw [segIdx_ix1]

/-! ## The gathers at an index -/

theorem gatherRows_read (M : FVec Ideal sNH .f32) (idx : IVec sEc 32) (e : Fin 1700000) (c : Fin 128) :
    Host.gather gaRows M idx (ix2 e c) =
      M (ix2 (clampRow 100000 (by decide) (idx (ix2 (n0 := 1700000) (n1 := 1) e ⟨0, Nat.one_pos⟩))) c) :=
  pickRows_apply (by decide) _ M idx e c

theorem gatherVec_read (x : FVec Ideal sN .f32) (idx : IVec sEc 32) (e : Fin 1700000) :
    Host.gather gaVec x idx (ix1 e) =
      x (ix1 (clampRow 100000 (by decide) (idx (ix2 (n0 := 1700000) (n1 := 1) e ⟨0, Nat.one_pos⟩)))) :=
  pick_apply (by decide) _ x idx e

/-! ## The index words -/

theorem wrapN_at (v : IVec sE 32) (i : sE.Idx) :
    wrapN v i = Scalar.select (IntOp.cmpi .slt (v i) 0#32) (IntOp.addi (v i) 100000#32) (v i) := rfl

/-- A slot whose target word, read signed, is the node v selects row v of the node arrays. -/
theorem row_of_label (d : IVec sE 32) (e : Fin 1700000) (v : Fin 100000) (h : (d (ix1 e)).toInt = (v.val : Int)) :
    clampRow 100000 (by decide) (wrapN d (ix1 e)) = v := by
  rw [wrapN_at, Cert.Lib.SignedIndex.wrap_of_nonneg _ _ (by omega)]
  refine Fin.ext ?_
  show min (d (ix1 e)).toInt.toNat (100000 - 1) = v.val
  have := v.isLt
  omega

end Cert.Stages

end
-- ==== Proof.AlgebraDinv.lean ====
/-
  The normalisation 1/sqrt(degree) is, at every node and for every list of targets, a real number that is not
  negative: the degree is zero plus a finite sum of ones, a real; the maximum of a real and one is a real ≥ 1; the
  reciprocal square root of a positive real is a positive real; and the select picks that or zero.
-/
import proofs.«171166_j2619930050604_2_alg».proof.Proof.Stages
import proofs.«171166_j2619930050604_2_alg».proof.Proof.LibScatterCount
import Idealize.ShloMosaic.Lib.ValueIdx

noncomputable section

open scoped BigOperators

namespace Cert.Stages

open Idealize.ShloMosaic Idealize.ShloMosaic.ValueIdx

theorem zeroN_apply (i : sN.Idx) : zeroN i = ((0 : ℝ) : EReal) := Cert.Lib.ofBits_zero_f32
theorem oneN_apply (i : sN.Idx) : oneN i = ((1 : ℝ) : EReal) := Cert.Lib.ofBits_one_f32
theorem oneE_apply (i : sE.Idx) : oneE i = ((1 : ℝ) : EReal) := Cert.Lib.ofBits_one_f32
theorem zeroNH_apply (i : sNH.Idx) : zeroNH i = (0 : EReal) := Cert.Lib.ofBits_zero_f32
theorem zeroG_apply (i : sG.Idx) : zeroG i = (0 : EReal) := Cert.Lib.ofBits_zero_f32
theorem oneG_apply (i : sG.Idx) : oneG i = ((1 : ℝ) : EReal) := Cert.Lib.ofBits_one_f32
theorem zeroGH_apply (i : sGH.Idx) : zeroGH i = (0 : EReal) := Cert.Lib.ofBits_zero_f32
theorem zeroGc_apply (i : sGc.Idx) : zeroGc i = (0 : EReal) := Cert.Lib.ofBits_zero_f32

/-- The degree of a node is a real number. -/
theorem deg_real (d : IVec sE 32) (i : sN.Idx) : ∃ r : ℝ, deg d i = (r : EReal) := by
  unfold deg
  rw [Cert.Lib.ScatterCount.hostScatterAdd_closed]
  exact Cert.Lib.ScatterCount.scatter_ones_real scEdge zeroN (colE d) oneE i (zeroN_apply i) oneE_apply

/-- The select of the normalisation, read at an index (for any three vectors). -/
theorem select_ogt_rsqrt_apply (a z o : FVec Ideal sN .f32) (i : sN.Idx) :
    select (cmpf .ogt a z) (Host.rsqrt (maximumf a o)) z i =
      Scalar.select (Ideal.cmp .ogt (a i) (z i)) (Ideal.rsqrt (max (a i) (o i))) (z i) := rfl

/-- The normalisation at a node is a real number that is not negative. -/
theorem dinv_real (d : IVec sE 32) (i : sN.Idx) : ∃ r : ℝ, 0 ≤ r ∧ dinv d i = (r : EReal) := by
  obtain ⟨a, ha⟩ := deg_real d i
  have hsel : dinv d i = Scalar.select (Ideal.cmp .ogt (deg d i) (zeroN i))
      (Ideal.rsqrt (max (deg d i) (oneN i))) (zeroN i) := select_ogt_rsqrt_apply (deg d) zeroN oneN i
  rw [hsel, ha, zeroN_apply, oneN_apply, Cert.Lib.max_coe, Ideal.rsqrt_coe]
  have h1 : (1 : ℝ) ≤ max a 1 := le_max_right _ _
  rw [if_neg (by linarith), if_neg (by linarith)]
  unfold Scalar.select
  split
  · exact ⟨(Real.sqrt (max a 1))⁻¹, inv_nonneg.mpr (Real.sqrt_nonneg _), rfl⟩
  · exact ⟨0, le_refl _, rfl⟩

theorem dinv_nonneg (d : IVec sE 32) (i : sN.Idx) : 0 ≤ dinv d i := by
  obtain ⟨r, hr, h⟩ := dinv_real d i
  rw [h]; exact EReal.coe_nonneg.mpr hr

theorem dinv_ne_top (d : IVec sE 32) (i : sN.Idx) : dinv d i ≠ ⊤ := by
  obtain ⟨r, _, h⟩ := dinv_real d i
  rw [h]; exact EReal.coe_ne_top _

end Cert.Stages

end
-- ==== Proof.LibScaleSum.lean ====
/-
  Scaling a finite sum of extended reals by a factor that is nonnegative and not +∞.

  On the extended reals multiplication does not distribute over addition in general (⊤ + ⊥ is ⊥, so a negative
  factor breaks it), but for a factor c with 0 ≤ c < ⊤ it does, infinite summands included. By induction over the
  index set the same holds of any finite sum: c · Σ f = Σ c · f. No summand has to be finite.

  The float word 0x3F000000 denotes exactly 1/2, which is such a factor.
-/
import Idealize.ShloMosaic.PureOps.Ideal

noncomputable section

open scoped BigOperators

namespace Cert.Lib.ScaleSum

open Idealize.ShloMosaic

/-- A factor that is nonnegative and not +∞ goes through a finite sum of extended reals. -/
theorem mul_sum {ι : Type*} (c : EReal) (h0 : 0 ≤ c) (ht : c ≠ ⊤) (s : Finset ι) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- The same with the factor inside a product of two entries: Σ (c · x) · w = c · Σ x · w. -/
theorem sum_mul_mul {ι : Type*} (c : EReal) (h0 : 0 ≤ c) (ht : c ≠ ⊤) (s : Finset ι) (x w : ι → EReal) :
    ∑ k ∈ s, (c * x k) * w k = c * ∑ k ∈ s, x k * w k := by
  rw [mul_sum c h0 ht]
  exact Finset.sum_congr rfl fun k _ => mul_assoc _ _ _

/-- The float 0.5 is the real number 1/2. -/
theorem half_eq : Ideal.ofBits .f32 0x3F000000#32 = ((1 / 2 : ℝ) : EReal) := by
  simp [Ideal.ofBits, Ideal.ieee, -EReal.coe_mul]; norm_num

theorem half_nonneg : (0 : EReal) ≤ Ideal.ofBits .f32 0x3F000000#32 := by
  rw [half_eq]; exact EReal.coe_nonneg.mpr (by norm_num)

theorem half_ne_top : Ideal.ofBits .f32 0x3F000000#32 ≠ (⊤ : EReal) := by
  rw [half_eq]; exact EReal.coe_ne_top _

end Cert.Lib.ScaleSum

end
-- ==== Proof.LibMaskedSum.lean ====
/-
  Masked sums of extended reals (what a segment sum reads as at one entry), over an abstract finite index type: two laws.

  * Scaling a masked sum by a factor c with 0 ≤ c < ⊤: the factor goes inside the sum, and where a summand is kept it
    may be rewritten with what the mask says.
  * The mean of a masked sum of h + b is the mean of the masked sum of h, plus b when the mask keeps at least one
    index: the number n of kept indices is a real, and for n ≥ 1 division by n is multiplication by the real 1/n ≥ 0,
    which distributes over a sum; the b's add up to n · b and (n · b) · (1/n) = b for every extended real b, by
    associativity of the product alone.
-/
import Idealize.ShloMosaic.PureOps.Ideal
import proofs.«171166_j2619930050604_2_alg».proof.Proof.LibScaleSum
import proofs.«171166_j2619930050604_2_alg».proof.Proof.LibRecip

noncomputable section

open scoped BigOperators

namespace Cert.Algebra

open Idealize.ShloMosaic

/-- A masked sum scaled by a factor that is nonnegative and not +∞: the factor goes to the kept summands. -/
theorem masked_sum_mul {ι : Type*} [Fintype ι] (p : ι → Prop) [DecidablePred p] (f g : ι → EReal) (z c : EReal)
    (hz : z = 0) (h0 : 0 ≤ c) (ht : c ≠ ⊤) (hfg : ∀ e, p e → f e * c = g e) :
    (z + ∑ e, if p e then f e else 0) * c = z + ∑ e, if p e then g e else 0 := by
  subst hz
  rw [zero_add, zero_add, mul_comm, Cert.Lib.ScaleSum.mul_sum c h0 ht]
  refine Finset.sum_congr rfl fun e _ => ?_
  by_cases h : p e
  · rw [if_pos h, if_pos h, mul_comm, hfg e h]
  · rw [if_neg h, if_neg h, mul_zero]

/-- A masked sum of ones is the number of kept indices. -/
theorem masked_sum_one {ι : Type*} [Fintype ι] (p : ι → Prop) [DecidablePred p] :
    (∑ v : ι, if p v then ((1 : ℝ) : EReal) else 0) = (((Finset.univ.filter p).card : ℝ) : EReal) := by
  rw [← Finset.sum_filter, Finset.sum_const, EReal.nsmul_eq_mul, EReal.coe_one, mul_one]
  rfl

/-- A masked sum of one value is that value taken as many times as there are kept indices. -/
theorem masked_sum_const {ι : Type*} [Fintype ι] (p : ι → Prop) [DecidablePred p] (b : EReal) :
    (∑ v : ι, if p v then b else 0) = (((Finset.univ.filter p).card : ℝ) : EReal) * b := by
  rw [← Finset.sum_filter, Finset.sum_const, EReal.nsmul_eq_mul]
  rfl

/-- The mean of the kept h + b is the mean of the kept h, plus b where something is kept. -/
theorem masked_mean_add {ι : Type*} [Fintype ι] (p : ι → Prop) [DecidablePred p] (h : ι → EReal) (b z z' one cnt : EReal)
    (hz : z = 0) (hz' : z' = 0) (hone : one = ((1 : ℝ) : EReal))
    (hcnt : cnt = z' + ∑ v : ι, if p v then ((1 : ℝ) : EReal) else 0) :
    Ideal.div (z + ∑ v, if p v then h v else 0) (max cnt one) + (if 0 < cnt then b else 0) =
      Ideal.div (z + ∑ v, if p v then h v + b else 0) (max cnt one) := by
  subst hz hz' hone
  rw [masked_sum_one, zero_add] at hcnt
  subst hcnt
  rw [zero_add, zero_add]
  rcases Nat.eq_zero_or_pos (Finset.univ.filter p).card with hn | hn
  · -- nothing is kept: every sum is empty
    have he : Finset.univ.filter p = ∅ := Finset.card_eq_zero.mp hn
    rw [← Finset.sum_filter, ← Finset.sum_filter, he, Finset.sum_empty, Finset.sum_empty, Finset.card_empty]
    rw [if_neg (by simp), add_zero]
  · -- n ≥ 1 indices are kept: divide by the real n
    have hn1 : (1 : ℝ) ≤ ((Finset.univ.filter p).card : ℝ) := by exact_mod_cast hn
    have hn0 : ((Finset.univ.filter p).card : ℝ) ≠ 0 := by positivity
    have hpos : (0 : EReal) < (((Finset.univ.filter p).card : ℝ) : EReal) := by
      exact_mod_cast (lt_of_lt_of_le zero_lt_one hn1)
    rw [if_pos hpos, Cert.Lib.max_coe, max_eq_left hn1, Ideal.div_coe hn0, Ideal.div_coe hn0]
    have hsplit : (∑ v : ι, if p v then h v + b else 0) =
        (∑ v : ι, if p v then h v else 0) + (((Finset.univ.filter p).card : ℝ) : EReal) * b := by
      rw [← masked_sum_const, ← Finset.sum_add_distrib]
      refine Finset.sum_congr rfl fun v _ => ?_
      by_cases hv : p v
      · rw [if_pos hv, if_pos hv, if_pos hv]
      · rw [if_neg hv, if_neg hv, if_neg hv, add_zero]
    have hr0 : (0 : EReal) ≤ ((1 / ((Finset.univ.filter p).card : ℝ) : ℝ) : EReal) := by
      exact_mod_cast (by positivity : (0 : ℝ) ≤ 1 / ((Finset.univ.filter p).card : ℝ))
    rw [hsplit, EReal.right_distrib_of_nonneg_of_ne_top hr0 (EReal.coe_ne_top _)]
    congr 1
    rw [mul_comm _ b, mul_assoc, ← EReal.coe_mul, mul_one_div_cancel hn0, EReal.coe_one, mul_one]

end Cert.Algebra

end
-- ==== Proof.AlgebraLayer.lean ====
/-
  One convolution, scaled in two ways.

  The reference scales what each slot e carries by dinv[src e] · dinv[dst e] before adding it into row dst e. The kernel
  scales the rows by dinv before they are sent (so slot e carries a row already scaled by dinv[src e]) and scales row v
  of the sums by dinv[v] afterwards. A slot contributes to row v only when its target word, read signed, is v, and
  then the node row that word selects is v itself, so dinv[dst e] = dinv[v]; and dinv[v] is a real number that is
  not negative, so it goes through the finite sum whatever the summands are. Only commutativity and
  associativity of the extended reals' product are used besides.
-/
import proofs.«171166_j2619930050604_2_alg».proof.Proof.AlgebraRead
import proofs.«171166_j2619930050604_2_alg».proof.Proof.AlgebraDinv
import proofs.«171166_j2619930050604_2_alg».proof.Proof.LibMaskedSum
import proofs.«171166_j2619930050604_2_alg».proof.Proof.LibPlainRecord

noncomputable section

open scoped BigOperators

namespace Cert.Stages

open Idealize.ShloMosaic Idealize.ShloMosaic.ValueIdx Cert.Lib.RowGather

/-- The kernel's unscaled sum of sent rows at (v, c). -/
theorem aggKer_at (M : FVec Ideal sNH .f32) (s d : IVec sE 32) (v : Fin 100000) (c : Fin 128) :
    aggKer M s d (ix2 v c) = zeroNH (ix2 v c) + ∑ e : Fin 1700000,
      if (d (ix1 e)).toInt = (v.val : Int) then M (ix2 (clampRow 100000 (by decide) (wrapN s (ix1 e))) c) else 0 := by
  unfold aggKer
  rw [edgeRows_read]
  refine congrArg (zeroNH (ix2 v c) + ·) (Finset.sum_congr rfl fun e _ => ?_)
  rw [colE_at, gatherRows_read, colE_at]

/-- The reference's convolution at (v, c). -/
theorem convRef_at (M : FVec Ideal sNH .f32) (s d : IVec sE 32) (v : Fin 100000) (c : Fin 128) :
    convRef M s d (ix2 v c) = zeroNH (ix2 v c) + ∑ e : Fin 1700000,
      if (d (ix1 e)).toInt = (v.val : Int) then
        M (ix2 (clampRow 100000 (by decide) (wrapN s (ix1 e))) c) *
          (dinv d (ix1 (clampRow 100000 (by decide) (wrapN s (ix1 e)))) *
            dinv d (ix1 (clampRow 100000 (by decide) (wrapN d (ix1 e)))))
      else 0 := by
  unfold convRef
  rw [edgeRows_read]
  refine congrArg (zeroNH (ix2 v c) + ·) (Finset.sum_congr rfl fun e _ => ?_)
  rw [colE_at, mulf_apply, gatherRows_read, colE_at, normMat_at]
  unfold norm
  rw [mulf_apply, gatherVec_read, gatherVec_read, colE_at, colE_at]

/-- THE LAYER: rows scaled by dinv, sent and added, the sums scaled by dinv again, are the reference's convolution. -/
theorem layer (M : FVec Ideal sNH .f32) (s d : IVec sE 32) :
    scaleRows (aggKer (mulf M (broadcastInDim sNH ![0, 1] (by decide) (dinvCol d))) s d) (dinvCol d) = convRef M s d := by
  funext i
  obtain ⟨v, c, rfl⟩ : ∃ (v : Fin 100000) (c : Fin 128), i = ix2 v c := ⟨i 0, i 1, eq_ix2 i⟩
  unfold scaleRows
  rw [mulf_apply, colNH_at, dinvCol_at, aggKer_at, convRef_at]
  refine Cert.Algebra.masked_sum_mul (fun e : Fin 1700000 => (d (ix1 e)).toInt = (v.val : Int)) _ _ _ _
    (zeroNH_apply _) (dinv_nonneg d _) (dinv_ne_top d _) (fun e he => ?_)
  rw [mulf_apply, colNH_at, dinvCol_at, row_of_label d e v he, mul_assoc]

/-- The same with the product written as the kernel's first region computes it. -/
theorem layer_dot (X : FVec Ideal sNH .f32) (w : FVec Ideal sHH .f32) (s d : IVec sE 32) :
    scaleRows (aggKer (scaledDot X w (dinvCol d)) s d) (dinvCol d) = convRef (Host.dotGeneral dotNH none X w) s d := by
  unfold scaledDot
  exact layer _ s d

/-- Scaling, adding the bias row and cutting at zero, with the bias row made by a reshape, is the reference's
    activation of the scaled rows. -/
theorem scaleBiasRelu_eq (A : FVec Ideal sNH .f32) (dc : FVec Ideal sNc .f32) (b : FVec Ideal sH .f32) :
    scaleBiasRelu A dc (shapeCast s1H b (by decide)) = maximumf (addf (scaleRows A dc) (biasN b)) zeroNH := by
  unfold scaleBiasRelu scaleRows biasN
  rw [Cert.Lib.DenseLayer.addUnit_eq_bcast (by decide) b _ (by decide)]

/-- The first layer's activations. -/
theorem h1_eq (x : FVec Ideal sNH .f32) (s d : IVec sE 32) (w1 : FVec Ideal sHH .f32) (b1 : FVec Ideal sH .f32) :
    scaleBiasRelu (aggKer (scaledDot x w1 (dinvCol d)) s d) (dinvCol d) (shapeCast s1H b1 (by decide)) = h1Ref x s d w1 b1 := by
  rw [scaleBiasRelu_eq, layer_dot]
  rfl

end Cert.Stages

end
-- ==== Proof.AlgebraPool.lean ====
/-
  The mean over each graph's nodes, with the bias added before or after.

  The reference adds the bias row b to every node row and then takes, for each graph, the sum of its rows divided by
  max(count, 1). The kernel takes the same mean of the rows without the bias and adds b afterwards where the graph has
  at least one node. The count is a finite sum of ones, a real number n; for n = 0 both sums are empty, and for n ≥ 1 the
  divisor is n, the b's add up to n · b, and (n · b) / n = b for every extended real b.
-/
import proofs.«171166_j2619930050604_2_alg».proof.Proof.AlgebraRead
import proofs.«171166_j2619930050604_2_alg».proof.Proof.AlgebraDinv
import proofs.«171166_j2619930050604_2_alg».proof.Proof.LibMaskedSum

noncomputable section

open scoped BigOperators

namespace Cert.Stages

open Idealize.ShloMosaic Idealize.ShloMosaic.ValueIdx

/-- The host's quotient at an index. -/
theorem hostDivf_at {s : Shape} (a b : FVec Ideal s .f32) (i : s.Idx) : Host.divf a b i = Ideal.div (a i) (b i) := rfl

/-- A select on "greater than" is the `if` on the order. -/
theorem select_ogt (x y a b : EReal) : Scalar.select (Ideal.cmp .ogt x y) a b = if y < x then a else b := by
  unfold Scalar.select Ideal.cmp
  by_cases h : y < x <;> simp [h]

/-- The number of nodes of graph g. -/
theorem cnts_at (bt : IVec sN 32) (g : Fin 64) :
    cnts bt (ix1 g) = zeroG (ix1 g) + ∑ v : Fin 100000, if (bt (ix1 v)).toInt = (g.val : Int) then ((1 : ℝ) : EReal) else 0 := by
  unfold cnts
  rw [pool_read]
  refine congrArg (zeroG (ix1 g) + ·) (Finset.sum_congr rfl fun v _ => ?_)
  rw [colN_at, oneN_apply]

/-- The divisor at (g, c). -/
theorem cntMat_at (bt : IVec sN 32) (g : Fin 64) (c : Fin 128) :
    cntMat bt (ix2 g c) = max (cnts bt (ix1 g)) (oneG (ix1 g)) := by
  unfold cntMat
  exact (colMat_at _ _ g c).trans ((vecCol_at (by decide) _ _ g).trans (maximumf_apply _ _ _))

/-- The mean of the rows of graph g, column c. -/
theorem meanRows_at (H : FVec Ideal sNH .f32) (bt : IVec sN 32) (g : Fin 64) (c : Fin 128) :
    meanRows H bt (ix2 g c) =
      Ideal.div (zeroGH (ix2 g c) + ∑ v : Fin 100000, if (bt (ix1 v)).toInt = (g.val : Int) then H (ix2 v c) else 0)
        (max (cnts bt (ix1 g)) (oneG (ix1 g))) := by
  unfold meanRows
  rw [hostDivf_at, poolRows_read, cntMat_at]
  refine congrArg (fun t : EReal => Ideal.div (zeroGH (ix2 g c) + t) (max (cnts bt (ix1 g)) (oneG (ix1 g))))
    (Finset.sum_congr rfl fun v _ => ?_)
  rw [colN_at]

/-- A select between a row carried over the graphs and a matrix, on a comparison made on a column. -/
theorem select_col_at (cn : FVec Ideal sG .f32) (z : FVec Ideal sGc .f32) (row : FVec Ideal s1H .f32) (zz : FVec Ideal sGH .f32)
    (h1 : sGc.BroadcastsInDim sGH ![0, 1]) (h2 : sG.BroadcastsInDim sGc ![0]) (h3 : s1H.BroadcastsInDim sGH ![0, 1])
    (g : Fin 64) (c : Fin 128) :
    select (broadcastInDim sGH ![0, 1] h1 (cmpf .ogt (broadcastInDim sGc ![0] h2 cn) z)) (broadcastInDim sGH ![0, 1] h3 row) zz (ix2 g c) =
      Scalar.select (Ideal.cmp .ogt (cn (ix1 g)) (z (ix2 (n0 := 64) (n1 := 1) g ⟨0, Nat.one_pos⟩)))
        (row (ix2 (n0 := 1) (n1 := 128) ⟨0, Nat.one_pos⟩ c)) (zz (ix2 g c)) := by
  rw [select_apply, colMat_at, cmpf_apply, vecCol_at (by decide), rowMat_at]
  rfl

/-- The bias the kernel adds at (g, c): b where graph g has a node. -/
theorem biasWhere_at (bt : IVec sN 32) (b2 : FVec Ideal sH .f32) (g : Fin 64) (c : Fin 128) :
    biasWhere bt b2 (ix2 g c) = if 0 < cnts bt (ix1 g) then b2 (ix1 c) else 0 := by
  unfold biasWhere
  rw [select_col_at, select_ogt, zeroGc_apply, zeroGH_apply, vecRow_at (by decide)]

/-- THE POOL: the mean of the rows plus the bias where there is a node is the mean of the rows with the bias added. -/
theorem pool (H : FVec Ideal sNH .f32) (bt : IVec sN 32) (b2 : FVec Ideal sH .f32) :
    pooledKer H bt b2 = meanRows (addf H (biasN b2)) bt := by
  funext i
  obtain ⟨g, c, rfl⟩ : ∃ (g : Fin 64) (c : Fin 128), i = ix2 g c := ⟨i 0, i 1, eq_ix2 i⟩
  unfold pooledKer
  rw [addf_apply, meanRows_at, meanRows_at, biasWhere_at]
  refine (Cert.Algebra.masked_mean_add (fun v : Fin 100000 => (bt (ix1 v)).toInt = (g.val : Int)) (fun v => H (ix2 v c))
    (b2 (ix1 c)) (zeroGH (ix2 g c)) (zeroG (ix1 g)) (oneG (ix1 g)) (cnts bt (ix1 g))
    (zeroGH_apply _) (zeroG_apply _) (oneG_apply _) (cnts_at bt g)).trans ?_
  refine congrArg (fun t : EReal => Ideal.div (zeroGH (ix2 g c) + t) (max (cnts bt (ix1 g)) (oneG (ix1 g))))
    (Finset.sum_congr rfl fun v _ => ?_)
  rw [addf_apply, biasN_at]

end Cert.Stages

end
-- ==== Proof.Algebra.lean ====
/-
  The two whole-array programs of Stages.lean are one function, for all index words and all extended-real entries.

  The kernel's program differs from the reference's in three places. (1) In each of the two convolutions it scales
  the rows by dinv before they are sent and the sums by dinv afterwards, where the reference scales each slot by
  dinv[src] · dinv[dst]: AlgebraLayer.lean. (2) It adds the second bias after the mean, where the graph has a node, where
  the reference adds it to every node row before the mean: AlgebraPool.lean. (3) It makes the two bias rows
  by reshapes [n] → [1, n], where the reference broadcasts along a new leading axis: the same row. Nothing is asked of
  any entry or index word.
-/
import proofs.«171166_j2619930050604_2_alg».proof.Proof.Stages
import proofs.«171166_j2619930050604_2_alg».proof.Proof.AlgebraLayer
import proofs.«171166_j2619930050604_2_alg».proof.Proof.AlgebraPool
import proofs.«171166_j2619930050604_2_alg».proof.Proof.LibPlainRecord

noncomputable section

namespace Cert.Stages

open Idealize.ShloMosaic Idealize.ShloMosaic.ValueIdx

/-- The last product plus its bias row, the row made by a reshape or by a broadcast. -/
theorem lastLayer_eq (P : FVec Ideal sGH .f32) (lw : FVec Ideal sHC .f32) (lb : FVec Ideal sC .f32) :
    lastLayer P lw (shapeCast s1C lb (by decide)) =
      addf (Host.dotGeneral dotGC none P lw) (biasG (broadcastInDim s1C ![1] (by decide) lb)) := by
  unfold lastLayer
  rw [Cert.Lib.DenseLayer.addUnit_eq_bcast (by decide) lb _ (by decide)]

/-- THE ALGEBRA: the kernel's whole-array program is the reference's. -/
theorem outKer_eq_outRef (x : FVec Ideal sNH .f32) (s d : IVec sE 32) (bt : IVec sN 32) (w1 : FVec Ideal sHH .f32)
    (b1 : FVec Ideal sH .f32) (w2 : FVec Ideal sHH .f32) (b2 : FVec Ideal sH .f32) (lw : FVec Ideal sHC .f32)
    (lb : FVec Ideal sC .f32) : outKer x s d bt w1 b1 w2 b2 lw lb = outRef x s d bt w1 b1 w2 b2 lw lb := by
  unfold outKer outRef h2Ref
  rw [h1_eq, layer_dot, pool, lastLayer_eq]

end Cert.Stages

end
-- ==== Proof.lean ====
/-
  A two-layer graph convolution with mean pooling over 64 graphs and a last dense layer: the kernel program against the
  reference program.

  Both programs compute, on the host, the same edge slots (the edge list's rows followed by a loop per node), the same
  degrees and the same 1/sqrt(degree). The reference scales every message by dinv[source] * dinv[target] as it is sent;
  the kernel scales the rows by dinv before they are gathered (inside its first two regions, after each product) and
  again after they are added (inside its second and third regions), which is the same sum because a target's factor
  is common to all messages that reach it and is a nonnegative real, so it passes through the sum of extended reals.
  The kernel adds the second bias after the mean, where a graph has a node; the mean of rows that each carry the bias is
  the mean of the rows plus the bias there, and both are 0 for an empty graph. The products are the same sums at the
  extended reals whether a matrix unit takes narrowed operands block by block or the host takes them whole.

  * The three frames: the two kernel programs' are the generated frame certificates; the reference's is its run
    (RefValue.lean) with the result dropped.
  * `preserves`: the idealization rewrote nothing.
  * `algebraic`: the kernel's run leaves `Cert.Stages.outKer` of the arguments in its result (KernelRun.lean names the
    result's contents, KernelValue.lean computes them through the four regions of KernelBlocks.lean); the reference's
    leaves `Cert.Stages.outRef` (RefRun.lean, RefValue.lean); Algebra.lean shows the two functions equal for all index
    words and all extended-real entries, so the precondition is not used.
-/
import proofs.«171166_j2619930050604_2_alg».proof.Defs
import proofs.«171166_j2619930050604_2_alg».proof.Proof.Gen.Kernel
import proofs.«171166_j2619930050604_2_alg».proof.Proof.Gen.Kernel.Frame
import proofs.«171166_j2619930050604_2_alg».proof.Proof.Gen.KernelIdeal
import proofs.«171166_j2619930050604_2_alg».proof.Proof.Gen.KernelIdeal.Frame
import proofs.«171166_j2619930050604_2_alg».proof.Proof.Gen.ReferenceIdeal
import proofs.«171166_j2619930050604_2_alg».proof.Proof.Gen.Pre_finite_inputs
import proofs.«171166_j2619930050604_2_alg».proof.Proof.KernelRun
import proofs.«171166_j2619930050604_2_alg».proof.Proof.KernelValue
import proofs.«171166_j2619930050604_2_alg».proof.Proof.RefValue
import proofs.«171166_j2619930050604_2_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference terminates with its arguments unchanged: its run, the result forgotten. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments both programs end with the same result: the kernel with `outKer` of its
    arguments, the reference with `outRef` of the same arguments, and the two functions are equal. -/
theorem algebraic : Cert.algebraic_KernelIdeal_ReferenceIdeal := by
  intro m ρ m' ρ' _ hagree
  refine ⟨fun c => Cert.Stages.outKer (m ((c.tc : Thread Cert.KernelIdeal.nD Cert.KernelIdeal.τ).loc Cert.KernelIdeal.main_arg0)) (Cert.Stages.src (m ((c.tc : Thread Cert.KernelIdeal.nD Cert.KernelIdeal.τ).loc Cert.KernelIdeal.main_arg1))) (Cert.Stages.dst (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.KerValue.value m ρ c), (h c).2⟩)
      (Cert.KernelIdeal.Run.run_result (F := Ideal) m ρ)
  · refine (θ_run Cert.ReferenceIdeal.defs _ _).mono (fun r h c => ⟨(h c).1.trans ?_, (h c).2⟩) (Cert.ReferenceIdeal.RefValue.run m' ρ')
    obtain ⟨e0, e1, e2, e3, e4, e5, e6, e7, e8⟩ := hagree c
    rw [e0, e1, e2, e3, e4, e5, e6, e7, e8]
    exact (Cert.Stages.outKer_eq_outRef _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
